-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x9x512x512 : Shape := ⟨4, ![8, 9, 512, 512]⟩
abbrev S_ : Shape := ⟨0, ![]⟩

class Facts : Prop where
  bcast_S_S8x9x512x512 : S_.BroadcastsInDim S8x9x512x512 (![] : Fin 0 → Fin S8x9x512x512.rank)
  reducesTo_S8x9x512x512_S_d0_1_2_3 : S8x9x512x512.ReducesTo [0, 1, 2, 3] S_
  h_S_ : 0 < S_.numel

variable [Facts]

def fn {F : FTy → Type} [FloatOps F] (main_arg0 : FVec F S8x9x512x512 .f32) : IVec S_ 1 :=
  let main_v0 : FVec F S8x9x512x512 .f32 := Host.absf main_arg0
  let main_cst : FVec F S_ .f32 := constant S_ .f32 0x7F800000#32
  let main_v1 : FVec F S8x9x512x512 .f32 := broadcastInDim S8x9x512x512 ![] bcast_S_S8x9x512x512 main_cst
  let main_v2 : IVec S8x9x512x512 1 := cmpf .olt main_v0 main_v1
  let main_c : IVec S_ 1 := constantI S_ 1 1#1
  let main_v3 : IVec S_ 1 := (fun x v => Host.reduce IntOp.andi x v reducesTo_S8x9x512x512_S_d0_1_2_3 h_S_) main_v2 main_c
  main_v3
-- ==== Kernel.lean ====
abbrev S8x9x512x512 : Shape := ⟨4, ![8, 9, 512, 512]⟩
abbrev S8x7x512x512 : Shape := ⟨4, ![8, 7, 512, 512]⟩
abbrev S8x1x512x512 : Shape := ⟨4, ![8, 1, 512, 512]⟩
abbrev S8x512x512 : Shape := ⟨3, ![8, 512, 512]⟩
abbrev S8x8x128 : Shape := ⟨3, ![8, 8, 128]⟩
abbrev S1x7x512x512 : Shape := ⟨4, ![1, 7, 512, 512]⟩
abbrev S1x512x512 : Shape := ⟨3, ![1, 512, 512]⟩
abbrev S1x8x128 : Shape := ⟨3, ![1, 8, 128]⟩
abbrev S512x512 : Shape := ⟨2, ![512, 512]⟩
abbrev S1x1 : Shape := ⟨2, ![1, 1]⟩
abbrev S1x1x512x512 : Shape := ⟨4, ![1, 1, 512, 512]⟩
abbrev S512 : Shape := ⟨1, ![512]⟩
abbrev S512x1 : Shape := ⟨2, ![512, 1]⟩
abbrev S1 : Shape := ⟨1, ![1]⟩
abbrev S1x1x1 : Shape := ⟨3, ![1, 1, 1]⟩
abbrev S8x1x1 : Shape := ⟨3, ![8, 1, 1]⟩
abbrev S8 : Shape := ⟨1, ![8]⟩

abbrev nBuf : Space → Nat
  | .hbm => 9
  | .vmem => 8
  | .smem => 0
  | _ => 0

abbrev bufTy : (tb : Table) → Fin (tcTables nBuf tb) → BufTy
  | .hbm, ⟨0, _⟩ => ⟨S8x9x512x512, .f32⟩
  | .hbm, ⟨1, _⟩ => ⟨S8x7x512x512, .f32⟩
  | .hbm, ⟨2, _⟩ => ⟨S8x1x512x512, .f32⟩
  | .hbm, ⟨3, _⟩ => ⟨S8x512x512, .f32⟩
  | .hbm, ⟨4, _⟩ => ⟨S8x1x512x512, .f32⟩
  | .hbm, ⟨5, _⟩ => ⟨S8x512x512, .f32⟩
  | .hbm, ⟨6, _⟩ => ⟨S8x8x128, .f32⟩
  | .hbm, ⟨7, _⟩ => ⟨S8x1x1, .f32⟩
  | .hbm, ⟨8, _⟩ => ⟨S8, .f32⟩
  | .local _ .vmem, ⟨0, _⟩ => ⟨S1x7x512x512, .f32⟩
  | .local _ .vmem, ⟨1, _⟩ => ⟨S1x7x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x8x128, .f32⟩
  | .local _ .vmem, ⟨7, _⟩ => ⟨S1x8x128, .f32⟩
  | _, _ => ⟨S8x9x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x7x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S8x9x512x512_S8x7x512x512_0_0_0_0 : S8x9x512x512.Slices ![0, 0, 0, 0] S8x7x512x512
  slices_S8x9x512x512_S8x1x512x512_0_7_0_0 : S8x9x512x512.Slices ![0, 7, 0, 0] S8x1x512x512
  shapeCasts_S8x1x512x512_S8x512x512 : S8x1x512x512.ShapeCasts S8x512x512
  slices_S8x9x512x512_S8x1x512x512_0_8_0_0 : S8x9x512x512.Slices ![0, 8, 0, 0] S8x1x512x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  iota_S512x512_d1_w32 : S512x512.Iotas .tc 32 [1]
  iota_S512x512_d0_w32 : S512x512.Iotas .tc 32 [0]
  inb_S1x7x512x512_S1x1x512x512_0_0_0_0 : ∀ a, (![0, 0, 0, 0] : Fin 4 → Nat) a + S1x1x512x512.size a ≤ S1x7x512x512.size a
  h_S1x1x512x512 : 0 < S1x1x512x512.numel
  shapeCasts_S1x1x512x512_S512x512 : S1x1x512x512.ShapeCasts S512x512
  rotates_S512x512_d1 : S512x512.Rotates 1 none
  rotates_S512x512_d0 : S512x512.Rotates 0 none
  reduces_S512x512_S512 : S512x512.Reduces [1] S512
  shapeCasts_S512_S512x1 : S512.ShapeCasts S512x1
  reduces_S512x1_S1 : S512x1.Reduces [0] S1
  shapeCasts_S1_S1x1 : S1.ShapeCasts S1x1
  inb_S1x7x512x512_S1x1x512x512_0_1_0_0 : ∀ a, (![0, 1, 0, 0] : Fin 4 → Nat) a + S1x1x512x512.size a ≤ S1x7x512x512.size a
  inb_S1x7x512x512_S1x1x512x512_0_2_0_0 : ∀ a, (![0, 2, 0, 0] : Fin 4 → Nat) a + S1x1x512x512.size a ≤ S1x7x512x512.size a
  inb_S1x7x512x512_S1x1x512x512_0_3_0_0 : ∀ a, (![0, 3, 0, 0] : Fin 4 → Nat) a + S1x1x512x512.size a ≤ S1x7x512x512.size a
  inb_S1x7x512x512_S1x1x512x512_0_4_0_0 : ∀ a, (![0, 4, 0, 0] : Fin 4 → Nat) a + S1x1x512x512.size a ≤ S1x7x512x512.size a
  inb_S1x7x512x512_S1x1x512x512_0_5_0_0 : ∀ a, (![0, 5, 0, 0] : Fin 4 → Nat) a + S1x1x512x512.size a ≤ S1x7x512x512.size a
  inb_S1x7x512x512_S1x1x512x512_0_6_0_0 : ∀ a, (![0, 6, 0, 0] : Fin 4 → Nat) a + S1x1x512x512.size a ≤ S1x7x512x512.size a
  shapeCasts_S1x1_S1x1x1 : S1x1.ShapeCasts S1x1x1
  shapeCasts_S1x1x1_S1x1x1 : S1x1x1.ShapeCasts S1x1x1
  broadcasts_S1x1x1_S1x8x128 : S1x1x1.Broadcasts S1x8x128
  inb_S1x8x128_S1x8x128_0_0_0 : ∀ a, (![0, 0, 0] : Fin 3 → Nat) a + S1x8x128.size a ≤ S1x8x128.size a
  h_S1x8x128 : 0 < S1x8x128.numel
  slices_S8x8x128_S8x1x1_0_0_0 : S8x8x128.Slices ![0, 0, 0] S8x1x1
  shapeCasts_S8x1x1_S8 : S8x1x1.ShapeCasts S8
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x7x512x512.size a ≤ S8x7x512x512.size a
  hwx0_0 : ∀ i : grid0.Coords, EltTy.bits .f32 = 32 ∨ (Rect.block (s := S8x7x512x512) S1x7x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S8x512x512.size a
  hwx0_1 : ∀ i : grid0.Coords, EltTy.bits .f32 = 32 ∨ (Rect.block (s := S8x512x512) S1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x512.size a ≤ S8x512x512.size a
  hwx0_2 : ∀ i : grid0.Coords, EltTy.bits .f32 = 32 ∨ (Rect.block (s := S8x512x512) S1x512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S8x8x128.size a
  hwx0_3 : ∀ i : grid0.Coords, EltTy.bits .f32 = 32 ∨ (Rect.block (s := S8x8x128) S1x8x128.size (cc0_transform_3 i) (hinb0_3 i)).WholeWords (EltTy.packing .f32)

variable [Facts₀]

abbrev win0_0 : Pipeline.Window sig grid0 :=
  Pipeline.Window.ofSpec (Memref.whole main_v0) S1x7x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x9x512x512 : Shape := ⟨4, ![8, 9, 512, 512]⟩
abbrev S8x7x512x512 : Shape := ⟨4, ![8, 7, 512, 512]⟩
abbrev S8x1x512x512 : Shape := ⟨4, ![8, 1, 512, 512]⟩
abbrev S8x512x512 : Shape := ⟨3, ![8, 512, 512]⟩
abbrev S_ : Shape := ⟨0, ![]⟩
abbrev S8x7x514x514 : Shape := ⟨4, ![8, 7, 514, 514]⟩
abbrev S8x7 : Shape := ⟨2, ![8, 7]⟩
abbrev S8x6x512x512 : Shape := ⟨4, ![8, 6, 512, 512]⟩
abbrev S8x6 : Shape := ⟨2, ![8, 6]⟩
abbrev S8 : Shape := ⟨1, ![8]⟩
abbrev S8x1 : Shape := ⟨2, ![8, 1]⟩
abbrev S8x5 : Shape := ⟨2, ![8, 5]⟩

abbrev nBuf : Space → Nat
  | .hbm => 110
  | .vmem => 0
  | .smem => 0
  | _ => 0

abbrev bufTy : (tb : Table) → Fin (tcTables nBuf tb) → BufTy
  | .hbm, ⟨0, _⟩ => ⟨S8x9x512x512, .f32⟩
  | .hbm, ⟨1, _⟩ => ⟨S8x7x512x512, .f32⟩
  | .hbm, ⟨2, _⟩ => ⟨S8x1x512x512, .f32⟩
  | .hbm, ⟨3, _⟩ => ⟨S8x512x512, .f32⟩
  | .hbm, ⟨4, _⟩ => ⟨S8x1x512x512, .f32⟩
  | .hbm, ⟨5, _⟩ => ⟨S8x512x512, .f32⟩
  | .hbm, ⟨6, _⟩ => ⟨S_, .f32⟩
  | .hbm, ⟨7, _⟩ => ⟨S8x512x512, .f32⟩
  | .hbm, ⟨8, _⟩ => ⟨S8x512x512, .f32⟩
  | .hbm, ⟨9, _⟩ => ⟨S8x512x512, .f32⟩
  | .hbm, ⟨10, _⟩ => ⟨S_, .f32⟩
  | .hbm, ⟨11, _⟩ => ⟨S8x512x512, .f32⟩
  | .hbm, ⟨12, _⟩ => ⟨S8x512x512, .f32⟩
  | .hbm, ⟨13, _⟩ => ⟨S_, .f32⟩
  | .hbm, ⟨14, _⟩ => ⟨S8x512x512, .f32⟩
  | .hbm, ⟨15, _⟩ => ⟨S8x512x512, .f32⟩
  | .hbm, ⟨16, _⟩ => ⟨S8x512x512, .f32⟩
  | .hbm, ⟨17, _⟩ => ⟨S_, .f32⟩
  | .hbm, ⟨18, _⟩ => ⟨S8x512x512, .f32⟩
  | .hbm, ⟨19, _⟩ => ⟨S8x512x512, .f32⟩
  | .hbm, ⟨20, _⟩ => ⟨S8x512x512, .f32⟩
  | .hbm, ⟨21, _⟩ => ⟨S_, .f32⟩
  | .hbm, ⟨22, _⟩ => ⟨S8x512x512, .f32⟩
  | .hbm, ⟨23, _⟩ => ⟨S8x512x512, .f32⟩
  | .hbm, ⟨24, _⟩ => ⟨S_, .i32⟩
  | .hbm, ⟨25, _⟩ => ⟨S_, .f32⟩
  | .hbm, ⟨26, _⟩ => ⟨S8x7x514x514, .f32⟩
  | .hbm, ⟨27, _⟩ => ⟨S8x7x512x512, .f32⟩
  | .hbm, ⟨28, _⟩ => ⟨S8x7x512x512, .f32⟩
  | .hbm, ⟨29, _⟩ => ⟨S_, .f32⟩
  | .hbm, ⟨30, _⟩ => ⟨S8x7x512x512, .f32⟩
  | .hbm, ⟨31, _⟩ => ⟨S8x7x512x512, .f32⟩
  | .hbm, ⟨32, _⟩ => ⟨S8x7x512x512, .f32⟩
  | .hbm, ⟨33, _⟩ => ⟨S8x7x512x512, .f32⟩
  | .hbm, ⟨34, _⟩ => ⟨S8x7x512x512, .f32⟩
  | .hbm, ⟨35, _⟩ => ⟨S8x7x512x512, .f32⟩
  | .hbm, ⟨36, _⟩ => ⟨S_, .f32⟩
  | .hbm, ⟨37, _⟩ => ⟨S8x7x512x512, .f32⟩
  | .hbm, ⟨38, _⟩ => ⟨S8x7x512x512, .f32⟩
  | .hbm, ⟨39, _⟩ => ⟨S8x7x512x512, .f32⟩
  | .hbm, ⟨40, _⟩ => ⟨S8x7x512x512, .f32⟩
  | .hbm, ⟨41, _⟩ => ⟨S8x7x512x512, .f32⟩
  | .hbm, ⟨42, _⟩ => ⟨S8x7x512x512, .f32⟩
  | .hbm, ⟨43, _⟩ => ⟨S8x7x512x512, .f32⟩
  | .hbm, ⟨44, _⟩ => ⟨S8x7x512x512, .f32⟩
  | .hbm, ⟨45, _⟩ => ⟨S8x7x512x512, .f32⟩
  | .hbm, ⟨46, _⟩ => ⟨S8x7x512x512, .f32⟩
  | .hbm, ⟨47, _⟩ => ⟨S8x7x512x512, .f32⟩
  | .hbm, ⟨48, _⟩ => ⟨S8x7x512x512, .f32⟩
  | .hbm, ⟨49, _⟩ => ⟨S_, .f32⟩
  | .hbm, ⟨50, _⟩ => ⟨S8x7x512x512, .f32⟩
  | .hbm, ⟨51, _⟩ => ⟨S8x7x512x512, .f32⟩
  | .hbm, ⟨52, _⟩ => ⟨S8x1x512x512, .f32⟩
  | .hbm, ⟨53, _⟩ => ⟨S8x7x512x512, .f32⟩
  | .hbm, ⟨54, _⟩ => ⟨S8x7x512x512, .f32⟩
  | .hbm, ⟨55, _⟩ => ⟨S8x1x512x512, .f32⟩
  | .hbm, ⟨56, _⟩ => ⟨S_, .f32⟩
  | .hbm, ⟨57, _⟩ => ⟨S8x1x512x512, .f32⟩
  | .hbm, ⟨58, _⟩ => ⟨S8x1x512x512, .f32⟩
  | .hbm, ⟨59, _⟩ => ⟨S8x7x512x512, .f32⟩
  | .hbm, ⟨60, _⟩ => ⟨S8x7x512x512, .f32⟩
  | .hbm, ⟨61, _⟩ => ⟨S8x7x512x512, .f32⟩
  | .hbm, ⟨62, _⟩ => ⟨S8x1x512x512, .f32⟩
  | .hbm, ⟨63, _⟩ => ⟨S8x7x512x512, .f32⟩
  | .hbm, ⟨64, _⟩ => ⟨S8x7x512x512, .f32⟩
  | .hbm, ⟨65, _⟩ => ⟨S8x7x512x512, .f32⟩
  | .hbm, ⟨66, _⟩ => ⟨S_, .f32⟩
  | .hbm, ⟨67, _⟩ => ⟨S8x7x512x512, .f32⟩
  | .hbm, ⟨68, _⟩ => ⟨S8x7x512x512, .f32⟩
  | .hbm, ⟨69, _⟩ => ⟨S8x7x512x512, .f32⟩
  | .hbm, ⟨70, _⟩ => ⟨S_, .f32⟩
  | .hbm, ⟨71, _⟩ => ⟨S8x7x512x512, .f32⟩
  | .hbm, ⟨72, _⟩ => ⟨S8x7x512x512, .f32⟩
  | .hbm, ⟨73, _⟩ => ⟨S8x7x512x512, .f32⟩
  | .hbm, ⟨74, _⟩ => ⟨S8x7x512x512, .f32⟩
  | .hbm, ⟨75, _⟩ => ⟨S_, .f32⟩
  | .hbm, ⟨76, _⟩ => ⟨S8x7, .f32⟩
  | .hbm, ⟨77, _⟩ => ⟨S8x7x512x512, .f32⟩
  | .hbm, ⟨78, _⟩ => ⟨S_, .f32⟩
  | .hbm, ⟨79, _⟩ => ⟨S8x7, .f32⟩
  | .hbm, ⟨80, _⟩ => ⟨S8x6x512x512, .f32⟩
  | .hbm, ⟨81, _⟩ => ⟨S8x6x512x512, .f32⟩
  | .hbm, ⟨82, _⟩ => ⟨S8x6x512x512, .f32⟩
  | .hbm, ⟨83, _⟩ => ⟨S_, .f32⟩
  | .hbm, ⟨84, _⟩ => ⟨S8x6, .f32⟩
  | .hbm, ⟨85, _⟩ => ⟨S_, .f32⟩
  | .hbm, ⟨86, _⟩ => ⟨S8, .f32⟩
  | .hbm, ⟨87, _⟩ => ⟨S8x1x512x512, .f32⟩
  | .hbm, ⟨88, _⟩ => ⟨S8x512x512, .f32⟩
  | .hbm, ⟨89, _⟩ => ⟨S8x512x512, .f32⟩
  | .hbm, ⟨90, _⟩ => ⟨S_, .f32⟩
  | .hbm, ⟨91, _⟩ => ⟨S8, .f32⟩
  | .hbm, ⟨92, _⟩ => ⟨S8x1, .f32⟩
  | .hbm, ⟨93, _⟩ => ⟨S8, .f32⟩
  | .hbm, ⟨94, _⟩ => ⟨S_, .f32⟩
  | .hbm, ⟨95, _⟩ => ⟨S8, .f32⟩
  | .hbm, ⟨96, _⟩ => ⟨S8, .f32⟩
  | .hbm, ⟨97, _⟩ => ⟨S8, .f32⟩
  | .hbm, ⟨98, _⟩ => ⟨S8x6, .f32⟩
  | .hbm, ⟨99, _⟩ => ⟨S_, .f32⟩
  | .hbm, ⟨100, _⟩ => ⟨S8, .f32⟩
  | .hbm, ⟨101, _⟩ => ⟨S8, .f32⟩
  | .hbm, ⟨102, _⟩ => ⟨S8x5, .f32⟩
  | .hbm, ⟨103, _⟩ => ⟨S_, .f32⟩
  | .hbm, ⟨104, _⟩ => ⟨S8, .f32⟩
  | .hbm, ⟨105, _⟩ => ⟨S8, .f32⟩
  | .hbm, ⟨106, _⟩ => ⟨S_, .f32⟩
  | .hbm, ⟨107, _⟩ => ⟨S8, .f32⟩
  | .hbm, ⟨108, _⟩ => ⟨S8, .f32⟩
  | .hbm, ⟨109, _⟩ => ⟨S8, .f32⟩
  | _, _ => ⟨S8x9x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_cst : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst_0 : Ref sig .tc := ⟨.hbm, 10, rfl⟩
abbrev main_v8 : Ref sig .tc := ⟨.hbm, 11, rfl⟩
abbrev main_v9 : Ref sig .tc := ⟨.hbm, 12, rfl⟩
abbrev main_cst_1 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_2 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_3 : Ref sig .tc := ⟨.hbm, 21, rfl⟩
abbrev main_v16 : Ref sig .tc := ⟨.hbm, 22, rfl⟩
abbrev main_v17 : Ref sig .tc := ⟨.hbm, 23, rfl⟩
abbrev main_c : Ref sig .tc := ⟨.hbm, 24, rfl⟩
abbrev main_call0_v0 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_6 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_7 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_cst_8 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_9 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_cst_10 : Ref sig .tc := ⟨.hbm, 75, rfl⟩
abbrev main_v61 : Ref sig .tc := ⟨.hbm, 76, rfl⟩
abbrev main_v62 : Ref sig .tc := ⟨.hbm, 77, rfl⟩
abbrev main_cst_11 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_cst_12 : Ref sig .tc := ⟨.hbm, 83, rfl⟩
abbrev main_v67 : Ref sig .tc := ⟨.hbm, 84, rfl⟩
abbrev main_cst_13 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_cst_14 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_cst_15 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_cst_16 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_cst_17 : Ref sig .tc := ⟨.hbm, 103, rfl⟩
abbrev main_v82 : Ref sig .tc := ⟨.hbm, 104, rfl⟩
abbrev main_v83 : Ref sig .tc := ⟨.hbm, 105, rfl⟩
abbrev main_cst_18 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩

abbrev nD : Nat := 1
abbrev τ : Topo := Topo.v7x

variable {F : FTy → Type} [FloatOps F]

class Facts₀ : Prop where
  slices_S8x9x512x512_S8x7x512x512_0_0_0_0 : S8x9x512x512.Slices ![0, 0, 0, 0] S8x7x512x512
  slices_S8x9x512x512_S8x1x512x512_0_7_0_0 : S8x9x512x512.Slices ![0, 7, 0, 0] S8x1x512x512
  shapeCasts_S8x1x512x512_S8x512x512 : S8x1x512x512.ShapeCasts S8x512x512
  slices_S8x9x512x512_S8x1x512x512_0_8_0_0 : S8x9x512x512.Slices ![0, 8, 0, 0] S8x1x512x512
  bcast_S_S8x512x512 : S_.BroadcastsInDim S8x512x512 (![] : Fin 0 → Fin S8x512x512.rank)
  pads_S8x7x512x512_S8x7x514x514_000_000_110_110 : S8x7x512x512.Pads (![0, 0, 1, 1] : Fin 4 → Nat) ![0, 0, 1, 1] ![0, 0, 0, 0] S8x7x514x514
  h_S_ : 0 < S_.numel
  slices_S8x7x514x514_S8x7x512x512_0_0_1_1 : S8x7x514x514.Slices ![0, 0, 1, 1] S8x7x512x512
  slices_S8x7x514x514_S8x7x512x512_0_0_1_2 : S8x7x514x514.Slices ![0, 0, 1, 2] S8x7x512x512
  bcast_S_S8x7x512x512 : S_.BroadcastsInDim S8x7x512x512 (![] : Fin 0 → Fin S8x7x512x512.rank)
  slices_S8x7x514x514_S8x7x512x512_0_0_1_0 : S8x7x514x514.Slices ![0, 0, 1, 0] S8x7x512x512
  slices_S8x7x514x514_S8x7x512x512_0_0_2_1 : S8x7x514x514.Slices ![0, 0, 2, 1] S8x7x512x512
  slices_S8x7x514x514_S8x7x512x512_0_0_0_1 : S8x7x514x514.Slices ![0, 0, 0, 1] S8x7x512x512
  slices_S8x7x514x514_S8x7x512x512_0_0_2_2 : S8x7x514x514.Slices ![0, 0, 2, 2] S8x7x512x512
  slices_S8x7x514x514_S8x7x512x512_0_0_2_0 : S8x7x514x514.Slices ![0, 0, 2, 0] S8x7x512x512
  slices_S8x7x514x514_S8x7x512x512_0_0_0_2 : S8x7x514x514.Slices ![0, 0, 0, 2] S8x7x512x512
  slices_S8x7x514x514_S8x7x512x512_0_0_0_0 : S8x7x514x514.Slices ![0, 0, 0, 0] S8x7x512x512
  bcast_S8x512x512_S8x1x512x512_0_2_3 : S8x512x512.BroadcastsInDim S8x1x512x512 (![0, 2, 3] : Fin 3 → Fin S8x1x512x512.rank)
  bcast_S8x1x512x512_S8x7x512x512_0_1_2_3 : S8x1x512x512.BroadcastsInDim S8x7x512x512 (![0, 1, 2, 3] : Fin 4 → Fin S8x7x512x512.rank)
  bcast_S_S8x1x512x512 : S_.BroadcastsInDim S8x1x512x512 (![] : Fin 0 → Fin S8x1x512x512.rank)
  reducesTo_S8x7x512x512_S8x7_d2_3 : S8x7x512x512.ReducesTo [2, 3] S8x7
  slices_S8x7x512x512_S8x6x512x512_0_0_0_0 : S8x7x512x512.Slices ![0, 0, 0, 0] S8x6x512x512
  slices_S8x7x512x512_S8x6x512x512_0_1_0_0 : S8x7x512x512.Slices ![0, 1, 0, 0] S8x6x512x512
  reducesTo_S8x6x512x512_S8x6_d2_3 : S8x6x512x512.ReducesTo [2, 3] S8x6
  reducesTo_S8x6_S8_d1 : S8x6.ReducesTo [1] S8
  slices_S8x7x512x512_S8x1x512x512_0_0_0_0 : S8x7x512x512.Slices ![0, 0, 0, 0] S8x1x512x512
  reducesTo_S8x512x512_S8_d1_2 : S8x512x512.ReducesTo [1, 2] S8
  slices_S8x7_S8x1_0_0 : S8x7.Slices ![0, 0] S8x1
  shapeCasts_S8x1_S8 : S8x1.ShapeCasts S8
  bcast_S_S8 : S_.BroadcastsInDim S8 (![] : Fin 0 → Fin S8.rank)
  slices_S8x7_S8x6_0_1 : S8x7.Slices ![0, 1] S8x6
  slices_S8x7_S8x5_0_1 : S8x7.Slices ![0, 1] S8x5
  reducesTo_S8x5_S8_d1 : S8x5.ReducesTo [1] S8

variable [Facts₀]

class Facts : Prop extends Facts₀ where

variable [Facts]
-- ==== Proof.KernelTerm.lean ====
/-
  The kernel body's one store, regrouped by time slice.

  The body computes, from the block's two velocity fields and its seven time slices, the diffusion entries
  H₁₁, H₁₂, H₂₂, then per slice the operator value `A u` (four masked rotations for the neighbours, the mixed
  difference as a y-difference of the x-difference), the lattice sums it needs, and a running scalar; the store
  broadcasts the final scalar over the output block.  Here the same operations are written once per slice
  (`vAx`, `vRs`, `vQ0`, `vMid`, `vLast`) and chained over the seven slices (`vQ`); `out_eq` says the body's store is
  exactly that chain (the operations are the same, so this is a definitional unfolding).
-/
import proofs.«172075_j85804856639623_2_alg».proof.Proof.Gen.KernelIdeal.Frame
import Idealize.ShloMosaic.PureOps.Ideal

set_option maxRecDepth 16384

noncomputable section

namespace Cert.KernelIdeal.KV

open Idealize.ShloMosaic Idealize.SL.Sem Cert.KernelIdeal Cert.KernelIdeal.Gen

/-- A lattice vector and a 1 × 1 vector at the ideal instance. -/
abbrev V2 := FVec Idealize.ShloMosaic.Ideal S512x512 .f32
abbrev V1 := FVec Idealize.ShloMosaic.Ideal S1x1 .f32

/-- The splat of a literal. -/
def cst (c : BitVec 32) : V2 := broadcast S512x512 (Scalar.ofBits (F := Idealize.ShloMosaic.Ideal) .f32 c)
def cst1 (c : BitVec 32) : V1 := broadcast S1x1 (Scalar.ofBits (F := Idealize.ShloMosaic.Ideal) .f32 c)

/-- The four edge masks: 0 on the last / first lane, on the last / first row, 1 elsewhere. -/
def mXp : V2 := k0_pay7 (F := Idealize.ShloMosaic.Ideal)
def mXm : V2 := k0_pay8 (F := Idealize.ShloMosaic.Ideal)
def mYp : V2 := k0_pay9 (F := Idealize.ShloMosaic.Ideal)
def mYm : V2 := k0_pay11 (F := Idealize.ShloMosaic.Ideal) k0_pay10 (Scalar.ofBits .f32 0x00000000#32) (Scalar.ofBits .f32 0x3F800000#32)

/-- H₁₁ = 1 + 25 vx², H₁₂ (doubled) = 50 vx vy, H₂₂ = 1 + 25 vy². -/
def vH11 (vx : V2) : V2 := addf (cst 0x3F800000#32) (mulf (mulf (cst 0x41C80000#32) vx) vx)
def vH12 (vx vy : V2) : V2 := mulf (mulf (cst 0x42480000#32) vx) vy
def vH22 (vy : V2) : V2 := addf (cst 0x3F800000#32) (mulf (mulf (cst 0x41C80000#32) vy) vy)

/-- The neighbours: a rotation by one place, the wrapped entries masked to zero. -/
def vSxp (u : V2) : V2 := mulf mXp (dynamicRotate 1 511#32 none u rotates_S512x512_d1)
def vSxm (u : V2) : V2 := mulf mXm (dynamicRotate 1 1#32 none u rotates_S512x512_d1)
def vSyp (u : V2) : V2 := mulf mYp (dynamicRotate 0 511#32 none u rotates_S512x512_d0)
def vSym (u : V2) : V2 := mulf mYm (dynamicRotate 0 1#32 none u rotates_S512x512_d0)

/-- `A u = κ² u − (H₁₁ u_xx + H₁₂ u_xy + H₂₂ u_yy)`. -/
def vAx (H11 H12 H22 u : V2) : V2 :=
  subf (mulf (cst 0x3DDF06F7#32) u)
    (addf (addf (mulf H11 (addf (subf (vSxp u) (mulf (cst 0x40000000#32) u)) (vSxm u)))
                (mulf H12 (mulf (cst 0x3E800000#32)
                  (subf (vSyp (subf (vSxp u) (vSxm u))) (vSym (subf (vSxp u) (vSxm u)))))))
          (mulf H22 (addf (subf (vSyp u) (mulf (cst 0x40000000#32) u)) (vSym u))))

/-- The sum over the lattice: over the lanes, then over the rows. -/
def vRs (a : V2) : V1 :=
  shapeCast S1x1 (multiReduction .add [0] S1
    (shapeCast S512x1 (multiReduction .add [1] S512 a 0x00000000#32 reduces_S512x512_S512) shapeCasts_S512_S512x1)
    0x00000000#32 reduces_S512x1_S1) shapeCasts_S1_S1x1

/-- Slice 0: `0 + ‖A u₀‖² + 1.05 ‖u₀‖²`. -/
def vQ0 (A0 u0 : V2) : V1 :=
  addf (addf (cst1 0x00000000#32) (vRs (mulf A0 A0))) (mulf (cst1 0x3F866666#32) (vRs (mulf u0 u0)))
/-- A middle slice: `q + ‖M u‖² + ‖u‖² − 2⟨u_prev, M u⟩`, `M u = u + A u`. -/
def vMid (q : V1) (up u A : V2) : V1 :=
  subf (addf (addf q (vRs (mulf (addf u A) (addf u A)))) (vRs (mulf u u)))
    (mulf (cst1 0x40000000#32) (vRs (mulf up (addf u A))))
/-- The last slice: the same without `‖u‖²`. -/
def vLast (q : V1) (up u A : V2) : V1 :=
  subf (addf q (vRs (mulf (addf u A) (addf u A)))) (mulf (cst1 0x40000000#32) (vRs (mulf up (addf u A))))

/-- The running scalar after the seven slices. -/
def vQ (vx vy u0 u1 u2 u3 u4 u5 u6 : V2) : V1 :=
  vLast (vMid (vMid (vMid (vMid (vMid (vQ0 (vAx (vH11 vx) (vH12 vx vy) (vH22 vy) u0) u0)
    u0 u1 (vAx (vH11 vx) (vH12 vx vy) (vH22 vy) u1))
    u1 u2 (vAx (vH11 vx) (vH12 vx vy) (vH22 vy) u2))
    u2 u3 (vAx (vH11 vx) (vH12 vx vy) (vH22 vy) u3))
    u3 u4 (vAx (vH11 vx) (vH12 vx vy) (vH22 vy) u4))
    u4 u5 (vAx (vH11 vx) (vH12 vx vy) (vH22 vy) u5))
    u5 u6 (vAx (vH11 vx) (vH12 vx vy) (vH22 vy) u6)

/-- A time slice of the block, and a velocity block, as lattice vectors. -/
def slice (v : Vec Idealize.ShloMosaic.Ideal S1x1x512x512 .f32) : V2 := shapeCast S512x512 v shapeCasts_S1x1x512x512_S512x512
def field (v : Vec Idealize.ShloMosaic.Ideal S1x512x512 .f32) : V2 := shapeCast S512x512 v shapeCasts_S1x512x512_S512x512

/-- The body's store is the chain over the seven slices, broadcast over the output block. -/
theorem out_eq (x0 : Vec Idealize.ShloMosaic.Ideal S1x7x512x512 .f32) (x1 x2 : Vec Idealize.ShloMosaic.Ideal S1x512x512 .f32) :
    out0_3 (F := Idealize.ShloMosaic.Ideal) x0 x1 x2 = View.canon [⟨r0_8, broadcastTo S1x8x128
      (shapeCast S1x1x1 (shapeCast S1x1x1
        (vQ (field (View.ld x1 r0_0)) (field (View.ld x2 r0_0))
          (slice (View.ld x0 r0_1)) (slice (View.ld x0 r0_2)) (slice (View.ld x0 r0_3)) (slice (View.ld x0 r0_4))
          (slice (View.ld x0 r0_5)) (slice (View.ld x0 r0_6)) (slice (View.ld x0 r0_7)))
        shapeCasts_S1x1_S1x1x1) shapeCasts_S1x1x1_S1x1x1) broadcasts_S1x1x1_S1x8x128⟩] := by
  rfl

end Cert.KernelIdeal.KV

end
-- ==== Proof.Stencil.lean ====
/-
  The mathematics of the claim over the real numbers, with no program in sight.

  A *grid* is a real function on the 512 × 512 lattice.  The four one-step shifts read a neighbour and give
  zero past the edge (a Dirichlet boundary): `sxp g y x = g y (x+1)`, `sxm g y x = g y (x-1)`,
  `syp g y x = g (y+1) x`, `sym g y x = g (y-1) x`.  The anisotropic operator
  `A u = κ² u − (H₁₁ u_xx + H₁₂ u_xy + H₂₂ u_yy)` is spelled in two ways: with the mixed difference taken as
  a y-difference of the x-difference (`axK`), and with the four corner reads combined one after the other and the
  factor two of the mixed term kept apart (`axR`).  Shifts are linear, so the two agree (`axR_eq_axK`).

  The quadratic form `q` adds, over the seven time slices, the squared norms of `A u₀`, of `u_t`, of
  `M u_t = u_t + A u_t` and the cross terms `⟨u_{t-1}, M u_t⟩`; `qK` adds them slice by slice, `qR` adds each kind over
  all slices first.  Finite sums of reals may be regrouped freely (`qR_eq_qK`).
-/
import Idealize.ShloMosaic.Lib.ValueIdx

noncomputable section

namespace Cert.Stencil

/-- A real field on the 512 × 512 lattice, row `y`, column `x`. -/
abbrev Grid := Fin 512 → Fin 512 → ℝ

/-- The neighbour at `x + 1`, zero past the right edge. -/
def sxp (g : Grid) : Grid := fun y x => if h : x.val + 1 < 512 then g y ⟨x.val + 1, h⟩ else 0
/-- The neighbour at `x - 1`, zero past the left edge. -/
def sxm (g : Grid) : Grid := fun y x => if _h : 1 ≤ x.val then g y ⟨x.val - 1, by have := x.isLt; omega⟩ else 0
/-- The neighbour at `y + 1`, zero past the bottom edge. -/
def syp (g : Grid) : Grid := fun y x => if h : y.val + 1 < 512 then g ⟨y.val + 1, h⟩ x else 0
/-- The neighbour at `y - 1`, zero past the top edge. -/
def sym (g : Grid) : Grid := fun y x => if _h : 1 ≤ y.val then g ⟨y.val - 1, by have := y.isLt; omega⟩ x else 0

/-- A shift of a difference is the difference of the shifts (zero minus zero is zero). -/
theorem syp_sub (f g : Grid) : syp (fun y x => f y x - g y x) = fun y x => syp f y x - syp g y x := by
  funext y x; unfold syp; split <;> simp
theorem sym_sub (f g : Grid) : sym (fun y x => f y x - g y x) = fun y x => sym f y x - sym g y x := by
  funext y x; unfold sym; split <;> simp

/-- `A u` with the mixed derivative as the y-difference of the x-difference `sxp u − sxm u`. -/
def axK (ck c2 c4 : ℝ) (H11 H12 H22 u : Grid) : Grid := fun y x =>
  ck * u y x -
    ((H11 y x * ((sxp u y x - c2 * u y x) + sxm u y x)
      + H12 y x * (c4 * (syp (fun y x => sxp u y x - sxm u y x) y x - sym (fun y x => sxp u y x - sxm u y x) y x)))
      + H22 y x * ((syp u y x - c2 * u y x) + sym u y x))

/-- `A u` with the mixed derivative from the four corner neighbours, and the factor `2` of `2 H₁₂` written out. -/
def axR (ck c2 c4 : ℝ) (H11 H12 H22 u : Grid) : Grid := fun y x =>
  ck * u y x -
    ((H11 y x * ((sxp u y x - c2 * u y x) + sxm u y x)
      + (c2 * H12 y x) * (c4 * (((syp (sxp u) y x - syp (sxm u) y x) - sym (sxp u) y x) + sym (sxm u) y x)))
      + H22 y x * ((syp u y x - c2 * u y x) + sym u y x))

/-- The two spellings of the operator agree: the shifts are linear. -/
theorem axR_eq_axK (ck c2 c4 : ℝ) (H11 H12 H22 u : Grid) :
    axR ck c2 c4 H11 H12 H22 u = axK ck c2 c4 H11 (fun y x => c2 * H12 y x) H22 u := by
  funext y x
  unfold axR axK
  rw [syp_sub, sym_sub]
  ring

/-- The sum of a grid over the lattice, rows outside. -/
def rs (g : Grid) : ℝ := ∑ y : Fin 512, ∑ x : Fin 512, g y x

/-- Pointwise square, product and sum of grids. -/
def sq (g : Grid) : Grid := fun y x => g y x * g y x
def pr (f g : Grid) : Grid := fun y x => f y x * g y x
def plus (f g : Grid) : Grid := fun y x => f y x + g y x

/-- The quadratic form accumulated slice by slice: slice 0 gives `‖A u₀‖² + c ‖u₀‖²`, a middle slice
    `‖M u_t‖² + ‖u_t‖² − 2⟨u_{t-1}, M u_t⟩`, the last slice the same without `‖u_t‖²`. -/
def qK (c105 c2 : ℝ) (u A : Fin 7 → Grid) : ℝ :=
  let M : Fin 7 → Grid := fun t => plus (u t) (A t)
  let q1 := (0 + rs (sq (A 0))) + c105 * rs (sq (u 0))
  let q2 := ((q1 + rs (sq (M 1))) + rs (sq (u 1))) - c2 * rs (pr (u 0) (M 1))
  let q3 := ((q2 + rs (sq (M 2))) + rs (sq (u 2))) - c2 * rs (pr (u 1) (M 2))
  let q4 := ((q3 + rs (sq (M 3))) + rs (sq (u 3))) - c2 * rs (pr (u 2) (M 3))
  let q5 := ((q4 + rs (sq (M 4))) + rs (sq (u 4))) - c2 * rs (pr (u 3) (M 4))
  let q6 := ((q5 + rs (sq (M 5))) + rs (sq (u 5))) - c2 * rs (pr (u 4) (M 5))
  (q6 + rs (sq (M 6))) - c2 * rs (pr (u 5) (M 6))

end Cert.Stencil

end
-- ==== Proof.VecReal.lean ====
/-
  Vectors of extended reals that happen to be real, read as grids.

  `IsR v g` says the 512 × 512 vector `v` holds, at row `y` and column `x`, the real `g y x`.  Each vector
  operation the kernel uses carries such a reading to another: the pointwise product, sum and difference to the
  pointwise ones; a splat of a real constant to the constant grid; the comparison of a lane or sublane number with
  a literal, turned into 0/1 by a select, to the indicator of the other coordinates; a rotation by one place
  multiplied by that indicator to the zero-boundary shift of `Stencil`; and the sum over lanes followed by the sum
  over sublanes to the sum of the grid.  Nothing here mentions a program.
-/
import Idealize.ShloMosaic.Lib.ValueIdx
import Idealize.ShloMosaic.Lib.Pipeline.Value
import Idealize.ShloMosaic.Lib.KernelVsHost
import Idealize.ShloMosaic.PureOps.Ideal.Laws
import proofs.«172075_j85804856639623_2_alg».proof.Proof.Stencil

noncomputable section

namespace Cert.VecReal

open Idealize.ShloMosaic Idealize.ShloMosaic.ValueIdx Cert.Stencil

/-- The lattice as a vector shape, and the shapes its sums pass through. -/
abbrev SG : Shape := ⟨2, ![512, 512]⟩
abbrev SRow : Shape := ⟨1, ![512]⟩
abbrev SCol : Shape := ⟨2, ![512, 1]⟩
abbrev SOne : Shape := ⟨1, ![1]⟩
abbrev SOne2 : Shape := ⟨2, ![1, 1]⟩

/-- The coercion of a finite real sum is the sum of the coercions. -/
theorem coe_sum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- `v` holds the real grid `g`. -/
def IsR (v : FVec Ideal SG .f32) (g : Grid) : Prop := ∀ y x, v (ix2 y x) = ((g y x : ℝ) : EReal)

/-- A 1 × 1 vector holds the real `r`. -/
def IsR1 (v : FVec Ideal SOne2 .f32) (r : ℝ) : Prop := v (ix2 0 0) = ((r : ℝ) : EReal)

theorem IsR.mulf {a b : FVec Ideal SG .f32} {f g : Grid} (ha : IsR a f) (hb : IsR b g) :
    IsR (mulf a b) (fun y x => f y x * g y x) := by
  intro y x
  show a (ix2 y x) * b (ix2 y x) = _
  rw [ha, hb, EReal.coe_mul]

theorem IsR.addf {a b : FVec Ideal SG .f32} {f g : Grid} (ha : IsR a f) (hb : IsR b g) :
    IsR (addf a b) (fun y x => f y x + g y x) := by
  intro y x
  show a (ix2 y x) + b (ix2 y x) = _
  rw [ha, hb, EReal.coe_add]

theorem IsR.subf {a b : FVec Ideal SG .f32} {f g : Grid} (ha : IsR a f) (hb : IsR b g) :
    IsR (subf a b) (fun y x => f y x - g y x) := by
  intro y x
  show a (ix2 y x) - b (ix2 y x) = _
  rw [ha, hb, EReal.coe_sub]

theorem IsR1.mulf {a b : FVec Ideal SOne2 .f32} {f g : ℝ} (ha : IsR1 a f) (hb : IsR1 b g) : IsR1 (mulf a b) (f * g) := by
  show a (ix2 0 0) * b (ix2 0 0) = _
  rw [ha, hb, EReal.coe_mul]
theorem IsR1.addf {a b : FVec Ideal SOne2 .f32} {f g : ℝ} (ha : IsR1 a f) (hb : IsR1 b g) : IsR1 (addf a b) (f + g) := by
  show a (ix2 0 0) + b (ix2 0 0) = _
  rw [ha, hb, EReal.coe_add]
theorem IsR1.subf {a b : FVec Ideal SOne2 .f32} {f g : ℝ} (ha : IsR1 a f) (hb : IsR1 b g) : IsR1 (subf a b) (f - g) := by
  show a (ix2 0 0) - b (ix2 0 0) = _
  rw [ha, hb, EReal.coe_sub]

/-- A splat of a constant whose pattern denotes the real `r`. -/
theorem isR_splat (c : BitVec 32) (r : ℝ) (hc : Ideal.ofBits .f32 c = ((r : ℝ) : EReal)) :
    IsR (broadcast SG (Scalar.ofBits (F := Ideal) .f32 c)) (fun _ _ => r) := fun _ _ => hc
theorem isR1_splat (c : BitVec 32) (r : ℝ) (hc : Ideal.ofBits .f32 c = ((r : ℝ) : EReal)) :
    IsR1 (broadcast SOne2 (Scalar.ofBits (F := Ideal) .f32 c)) r := hc

/-- Two words below 2³² are equal exactly when the numbers are. -/
theorem ofNat_beq (n k : Nat) (hn : n < 2 ^ 32) (hk : k < 2 ^ 32) :
    (BitVec.ofNat 32 n == BitVec.ofNat 32 k) = decide (n = k) := by
  by_cases h : n = k
  · subst h; simp
  · have hne : BitVec.ofNat 32 n ≠ BitVec.ofNat 32 k := fun e => h (by
      have := congrArg BitVec.toNat e
      rwa [BitVec.toNat_ofNat, BitVec.toNat_ofNat, Nat.mod_eq_of_lt hn, Nat.mod_eq_of_lt hk] at this)
    simp [hne, h]

/-- The 0/1 mask "coordinate `d` is not `n`": the select of zero and one on the comparison of the coordinate's number
    with the literal. -/
theorem isR_mask (d : Fin 2) (hI : SG.Iotas .tc 32 [d]) (n : Nat) (hn : n < 2 ^ 32) (z o : BitVec 32)
    (hz : Ideal.ofBits .f32 z = ((0 : ℝ) : EReal)) (ho : Ideal.ofBits .f32 o = ((1 : ℝ) : EReal)) :
    IsR (select (cmpi .eq (iota .tc SG 32 [d] hI) (broadcast SG (BitVec.ofNat 32 n)))
          (broadcast SG (Scalar.ofBits (F := Ideal) .f32 z)) (broadcast SG (Scalar.ofBits (F := Ideal) .f32 o)))
      (fun y x => if ((ix2 y x : SG.Idx) d).val = n then 0 else 1) := by
  intro y x
  show Scalar.select (IntOp.cmpi .eq (iota .tc SG 32 [d] hI (ix2 y x)) (BitVec.ofNat 32 n)) (Ideal.ofBits .f32 z) (Ideal.ofBits .f32 o) = _
  rw [iota_single_apply]
  unfold Scalar.select IntOp.cmpi
  have hlt : ((ix2 y x : SG.Idx) d).val < 2 ^ 32 := by
    have h512 : SG.size d ≤ 512 := by fin_cases d <;> decide
    exact Nat.lt_of_lt_of_le (Nat.lt_of_lt_of_le ((ix2 y x : SG.Idx) d).isLt h512) (by norm_num)
  simp only [ofNat_beq _ _ hlt hn]
  by_cases h : ((ix2 y x : SG.Idx) d).val = n
  · simp [h, hz]
  · simp [h, ho]

/-! ## A rotation by one place under its edge mask is a zero-boundary shift -/

/-- Rotated by 511 along the lanes, entry `x` is the old entry `x + 1` (around the end); the mask "lane is not 511"
    removes the wrapped one. -/
theorem IsR.sxp {u mk : FVec Ideal SG .f32} {g : Grid} (hu : IsR u g) (h : SG.Rotates 1 none)
    (hm : IsR mk (fun y x => if ((ix2 y x : SG.Idx) 1).val = 511 then 0 else 1)) :
    IsR (Idealize.ShloMosaic.mulf mk (dynamicRotate 1 511#32 none u h)) (Stencil.sxp g) := by
  intro y x
  show mk (ix2 y x) * dynamicRotate 1 511#32 none u h (ix2 y x) = _
  have hk : (x.val + 1) % 512 < 512 := Nat.mod_lt _ (by norm_num)
  rw [hm, dynamicRotate_apply 1 511#32 u h (ix2 y x) (ix2 y ⟨(x.val + 1) % 512, hk⟩) (fun b => match b with
    | ⟨0, _⟩ => by rw [if_neg (Fin.ne_of_val_ne (by show (0 : ℕ) ≠ 1; decide))]
    | ⟨1, h1⟩ => by rw [if_pos (Fin.ext rfl : (⟨1, h1⟩ : Fin SG.rank) = 1)]; show (x.val + 1) % 512 = (x.val + 512 - 511 % 512) % 512; omega), hu]
  unfold Stencil.sxp
  show ((if x.val = 511 then (0 : ℝ) else 1 : ℝ) : EReal) * _ = _
  by_cases hx : x.val = 511
  · rw [if_pos hx, dif_neg (by omega)]; simp
  · have hx' : x.val + 1 < 512 := by have := x.isLt; omega
    rw [if_neg hx, dif_pos hx']
    have e : (⟨(x.val + 1) % 512, hk⟩ : Fin 512) = ⟨x.val + 1, hx'⟩ := Fin.ext (Nat.mod_eq_of_lt hx')
    rw [e]; simp

/-- Rotated by 1 along the lanes, entry `x` is the old entry `x − 1`; the mask "lane is not 0" removes the wrapped one. -/
theorem IsR.sxm {u mk : FVec Ideal SG .f32} {g : Grid} (hu : IsR u g) (h : SG.Rotates 1 none)
    (hm : IsR mk (fun y x => if ((ix2 y x : SG.Idx) 1).val = 0 then 0 else 1)) :
    IsR (Idealize.ShloMosaic.mulf mk (dynamicRotate 1 1#32 none u h)) (Stencil.sxm g) := by
  intro y x
  show mk (ix2 y x) * dynamicRotate 1 1#32 none u h (ix2 y x) = _
  have hk : (x.val + 511) % 512 < 512 := Nat.mod_lt _ (by norm_num)
  rw [hm, dynamicRotate_apply 1 1#32 u h (ix2 y x) (ix2 y ⟨(x.val + 511) % 512, hk⟩) (fun b => match b with
    | ⟨0, _⟩ => by rw [if_neg (Fin.ne_of_val_ne (by show (0 : ℕ) ≠ 1; decide))]
    | ⟨1, h1⟩ => by rw [if_pos (Fin.ext rfl : (⟨1, h1⟩ : Fin SG.rank) = 1)]; show (x.val + 511) % 512 = (x.val + 512 - 1 % 512) % 512; omega), hu]
  unfold Stencil.sxm
  show ((if x.val = 0 then (0 : ℝ) else 1 : ℝ) : EReal) * _ = _
  by_cases hx : x.val = 0
  · rw [if_pos hx, dif_neg (by omega)]; simp
  · have hx' : 1 ≤ x.val := by omega
    rw [if_neg hx, dif_pos hx']
    have e : (⟨(x.val + 511) % 512, hk⟩ : Fin 512) = ⟨x.val - 1, by have := x.isLt; omega⟩ :=
      Fin.ext (by have := x.isLt; show (x.val + 511) % 512 = x.val - 1; omega)
    rw [e]; simp

/-- Rotated by 511 along the sublanes, row `y` is the old row `y + 1`; the mask "row is not 511" removes the wrapped one. -/
theorem IsR.syp {u mk : FVec Ideal SG .f32} {g : Grid} (hu : IsR u g) (h : SG.Rotates 0 none)
    (hm : IsR mk (fun y x => if ((ix2 y x : SG.Idx) 0).val = 511 then 0 else 1)) :
    IsR (Idealize.ShloMosaic.mulf mk (dynamicRotate 0 511#32 none u h)) (Stencil.syp g) := by
  intro y x
  show mk (ix2 y x) * dynamicRotate 0 511#32 none u h (ix2 y x) = _
  have hk : (y.val + 1) % 512 < 512 := Nat.mod_lt _ (by norm_num)
  rw [hm, dynamicRotate_apply 0 511#32 u h (ix2 y x) (ix2 ⟨(y.val + 1) % 512, hk⟩ x) (fun b => match b with
    | ⟨0, h0⟩ => by rw [if_pos (Fin.ext rfl : (⟨0, h0⟩ : Fin SG.rank) = 0)]; show (y.val + 1) % 512 = (y.val + 512 - 511 % 512) % 512; omega
    | ⟨1, _⟩ => by rw [if_neg (Fin.ne_of_val_ne (by show (1 : ℕ) ≠ 0; decide))]), hu]
  unfold Stencil.syp
  show ((if y.val = 511 then (0 : ℝ) else 1 : ℝ) : EReal) * _ = _
  by_cases hy : y.val = 511
  · rw [if_pos hy, dif_neg (by omega)]; simp
  · have hy' : y.val + 1 < 512 := by have := y.isLt; omega
    rw [if_neg hy, dif_pos hy']
    have e : (⟨(y.val + 1) % 512, hk⟩ : Fin 512) = ⟨y.val + 1, hy'⟩ := Fin.ext (Nat.mod_eq_of_lt hy')
    rw [e]; simp

/-- Rotated by 1 along the sublanes, row `y` is the old row `y − 1`; the mask "row is not 0" removes the wrapped one. -/
theorem IsR.sym {u mk : FVec Ideal SG .f32} {g : Grid} (hu : IsR u g) (h : SG.Rotates 0 none)
    (hm : IsR mk (fun y x => if ((ix2 y x : SG.Idx) 0).val = 0 then 0 else 1)) :
    IsR (Idealize.ShloMosaic.mulf mk (dynamicRotate 0 1#32 none u h)) (Stencil.sym g) := by
  intro y x
  show mk (ix2 y x) * dynamicRotate 0 1#32 none u h (ix2 y x) = _
  have hk : (y.val + 511) % 512 < 512 := Nat.mod_lt _ (by norm_num)
  rw [hm, dynamicRotate_apply 0 1#32 u h (ix2 y x) (ix2 ⟨(y.val + 511) % 512, hk⟩ x) (fun b => match b with
    | ⟨0, h0⟩ => by rw [if_pos (Fin.ext rfl : (⟨0, h0⟩ : Fin SG.rank) = 0)]; show (y.val + 511) % 512 = (y.val + 512 - 1 % 512) % 512; omega
    | ⟨1, _⟩ => by rw [if_neg (Fin.ne_of_val_ne (by show (1 : ℕ) ≠ 0; decide))]), hu]
  unfold Stencil.sym
  show ((if y.val = 0 then (0 : ℝ) else 1 : ℝ) : EReal) * _ = _
  by_cases hy : y.val = 0
  · rw [if_pos hy, dif_neg (by omega)]; simp
  · have hy' : 1 ≤ y.val := by omega
    rw [if_neg hy, dif_pos hy']
    have e : (⟨(y.val + 511) % 512, hk⟩ : Fin 512) = ⟨y.val - 1, by have := y.isLt; omega⟩ :=
      Fin.ext (by have := y.isLt; show (y.val + 511) % 512 = y.val - 1; omega)
    rw [e]; simp

/-! ## The sum over the lattice in two stages -/

/-- The sum over the lanes of each row, kept as a column, then the sum of that column over the rows, kept as a 1 × 1
    vector: the double sum of the grid. -/
theorem isR1_rsum {v : FVec Ideal SG .f32} {f : Grid} (hv : IsR v f)
    (h1 : SG.Reduces [1] SRow) (hc1 : SRow.ShapeCasts SCol) (h2 : SCol.Reduces [0] SOne) (hc2 : SOne.ShapeCasts SOne2)
    (hφ : FKind.Formats .f32) (hacc : (0x00000000#32 : BitVec 32) = FKind.add.neutral .f32 hφ) :
    IsR1 (shapeCast SOne2 (multiReduction .add [0] SOne
        (shapeCast SCol (multiReduction .add [1] SRow v 0x00000000#32 h1 hφ hacc) hc1) 0x00000000#32 h2 hφ hacc) hc2)
      (rs f) := by
  show shapeCast SOne2 _ hc2 (ix2 0 0) = _
  rw [shapeCast_apply _ hc2 (ix2 0 0) (ix1 0) (by rw [Shape.rowMajor_val_one, Shape.rowMajor_val_two]; rfl)]
  refine (Ideal.multiReduction_add_single _ _ h2 hφ hacc (ix1 0)).trans ?_
  show ∑ k : Fin 512, _ = _
  unfold rs
  rw [coe_sum]
  refine Finset.sum_congr rfl fun k _ => ?_
  rw [shapeCast_apply _ hc1 (h2.lift (ix1 0) k) (ix1 k) (by
    rw [Shape.rowMajor_val_one, Shape.rowMajor_val_two]
    show k.val = k.val * 1 + 0
    omega)]
  refine (Ideal.multiReduction_add_single _ _ h1 hφ hacc (ix1 k)).trans ?_
  show ∑ x : Fin 512, _ = _
  rw [coe_sum]
  refine Finset.sum_congr rfl fun x _ => ?_
  rw [← hv k x]
  exact congrArg v (funext fun a => Fin.ext (by match a with | ⟨0, _⟩ => rfl | ⟨1, _⟩ => rfl))

end Cert.VecReal

end
-- ==== Proof.Consts.lean ====
/-
  The float literals of the two programs, as the reals their bit patterns denote.  The words for 0, 1, 2, 25 and 50 are
  evaluated (the mixed term needs 50 = 2 · 25, the reference's `1 · A u` needs 1, the sums start at 0); the words for
  κ², 1/4 and 1.05 are the same on both sides, so all that is used of them is that each denotes SOME real number
  (`ck`, `c4`, `c105`).
-/
import Idealize.ShloMosaic.PureOps.Ideal

noncomputable section

namespace Cert.Consts

open Idealize.ShloMosaic

theorem ofBits_0 : Ideal.ofBits .f32 0x00000000#32 = ((0 : ℝ) : EReal) := by
  simp [Ideal.ofBits, Ideal.ieee]
theorem ofBits_1 : Ideal.ofBits .f32 0x3F800000#32 = ((1 : ℝ) : EReal) := by
  simp [Ideal.ofBits, Ideal.ieee, -EReal.coe_mul]; norm_num
theorem ofBits_2 : Ideal.ofBits .f32 0x40000000#32 = ((2 : ℝ) : EReal) := by
  simp [Ideal.ofBits, Ideal.ieee, -EReal.coe_mul]; norm_num
theorem ofBits_25 : Ideal.ofBits .f32 0x41C80000#32 = ((25 : ℝ) : EReal) := by
  simp [Ideal.ofBits, Ideal.ieee, -EReal.coe_mul]; norm_num
theorem ofBits_50 : Ideal.ofBits .f32 0x42480000#32 = ((50 : ℝ) : EReal) := by
  simp [Ideal.ofBits, Ideal.ieee, -EReal.coe_mul]; norm_num

/-- The real the word of κ² (0.1089 rounded to f32) denotes. -/
def ck : ℝ := (Ideal.ofBits .f32 0x3DDF06F7#32).toReal
/-- The real the word of 1/4 denotes. -/
def c4 : ℝ := (Ideal.ofBits .f32 0x3E800000#32).toReal
/-- The real the word of 1.05 (rounded to f32) denotes. -/
def c105 : ℝ := (Ideal.ofBits .f32 0x3F866666#32).toReal

/-- A word whose exponent field is not all ones denotes a real number (a normal, a subnormal or a zero). -/
theorem real_of (b : BitVec 32) (h : (b.extractLsb' 23 8).toNat ≠ 2 ^ 8 - 1) :
    ∃ r : ℝ, Ideal.ofBits .f32 b = ((r : ℝ) : EReal) := by
  unfold Ideal.ofBits Ideal.ieee
  dsimp only
  rw [if_neg h]
  split <;> exact ⟨_, rfl⟩

theorem ofBits_ck : Ideal.ofBits .f32 0x3DDF06F7#32 = ((ck : ℝ) : EReal) := by
  obtain ⟨r, hr⟩ := real_of 0x3DDF06F7#32 (by decide)
  unfold ck; rw [hr, EReal.toReal_coe]
theorem ofBits_c4 : Ideal.ofBits .f32 0x3E800000#32 = ((c4 : ℝ) : EReal) := by
  obtain ⟨r, hr⟩ := real_of 0x3E800000#32 (by decide)
  unfold c4; rw [hr, EReal.toReal_coe]
theorem ofBits_c105 : Ideal.ofBits .f32 0x3F866666#32 = ((c105 : ℝ) : EReal) := by
  obtain ⟨r, hr⟩ := real_of 0x3F866666#32 (by decide)
  unfold c105; rw [hr, EReal.toReal_coe]

end Cert.Consts

end
-- ==== Proof.Spec.lean ====
/-
  The common value of the two programs, as one function of the argument array.

  From the array `state : [8, 9, 512, 512]` batch `b` has seven time slices `u₀ … u₆` (entries 0–6 of the second
  axis) and two velocity grids `vx`, `vy` (entries 7 and 8).  The diffusion entries are `H₁₁ = 1 + 25 vx²`,
  `H₁₂ = 50 vx vy` (the factor two of the mixed term folded in), `H₂₂ = 1 + 25 vy²`, and the result at `b` is the
  quadratic form `Stencil.qK` of the slices and of `A u_t`.  The grids are read off the array through `toReal`, so
  the function is defined for every array; it is the programs' value on arrays of real numbers (`IsReal`).
-/
import Idealize.ShloMosaic.Lib.ValueIdx
import proofs.«172075_j85804856639623_2_alg».proof.Proof.Stencil
import proofs.«172075_j85804856639623_2_alg».proof.Proof.Consts

noncomputable section

namespace Cert.Spec

open Idealize.ShloMosaic Idealize.ShloMosaic.ValueIdx Cert.Stencil Cert.Consts

/-- The argument's shape and the result's. -/
abbrev SArg : Shape := ⟨4, ![8, 9, 512, 512]⟩
abbrev SRes : Shape := ⟨1, ![8]⟩

/-- Every entry of the array is a real number. -/
def IsReal (x0 : SArg.Idx → EReal) : Prop := ∀ i, x0 i = (((x0 i).toReal : ℝ) : EReal)

/-- Entry `t` of batch `b`, as a real grid. -/
def gridOf (x0 : SArg.Idx → EReal) (b : Fin 8) (t : Fin 9) : Grid := fun y x => (x0 (ix4 b t y x)).toReal

/-- Time slice `t` among the nine entries. -/
def up7 (t : Fin 7) : Fin 9 := ⟨t.val, Nat.lt_of_lt_of_le t.isLt (by norm_num)⟩

/-- The diffusion entries from the two velocity grids. -/
def h11 (gx : Grid) : Grid := fun y x => 1 + (25 * gx y x) * gx y x
def h12K (gx gy : Grid) : Grid := fun y x => (50 * gx y x) * gy y x
def h22 (gy : Grid) : Grid := fun y x => 1 + (25 * gy y x) * gy y x

/-- The operator applied to slice `t` of batch `b`. -/
def opAt (x0 : SArg.Idx → EReal) (b : Fin 8) (t : Fin 7) : Grid :=
  axK ck 2 c4 (h11 (gridOf x0 b 7)) (h12K (gridOf x0 b 7) (gridOf x0 b 8)) (h22 (gridOf x0 b 8)) (gridOf x0 b (up7 t))

/-- The quadratic form of batch `b`. -/
def qv (x0 : SArg.Idx → EReal) (b : Fin 8) : ℝ :=
  qK c105 2 (fun t => gridOf x0 b (up7 t)) (fun t => opAt x0 b t)

/-- The result array. -/
def QK (x0 : SArg.Idx → EReal) : SRes.Idx → EReal := fun i => ((qv x0 (i 0) : ℝ) : EReal)

end Cert.Spec

end
-- ==== Proof.KernelReal.lean ====
/-
  The kernel's running scalar, read over the reals.

  When the block's entries are real numbers, every vector of the per-slice chain holds a real grid: the diffusion
  entries hold `1 + 25 vx²`, `50 vx vy`, `1 + 25 vy²`; the operator value holds `Stencil.axK`; each lattice sum
  holds `Stencil.rs`; and the final scalar holds `Stencil.qK` of the seven slices.  Each step is the matching
  lemma of `VecReal` applied to the operation at hand.
-/
import proofs.«172075_j85804856639623_2_alg».proof.Proof.KernelTerm
import proofs.«172075_j85804856639623_2_alg».proof.Proof.VecReal
import proofs.«172075_j85804856639623_2_alg».proof.Proof.Consts
import proofs.«172075_j85804856639623_2_alg».proof.Proof.Spec

set_option maxRecDepth 16384

noncomputable section

namespace Cert.KernelIdeal.KV

open Idealize.ShloMosaic Idealize.ShloMosaic.ValueIdx Cert.KernelIdeal Cert.KernelIdeal.Gen
open Cert.VecReal Cert.Stencil Cert.Consts Cert.Spec

theorem isR_cst (c : BitVec 32) (r : ℝ) (hc : Idealize.ShloMosaic.Ideal.ofBits .f32 c = ((r : ℝ) : EReal)) :
    IsR (cst c) (fun _ _ => r) := isR_splat c r hc
theorem isR1_cst1 (c : BitVec 32) (r : ℝ) (hc : Idealize.ShloMosaic.Ideal.ofBits .f32 c = ((r : ℝ) : EReal)) :
    IsR1 (cst1 c) r := isR1_splat c r hc

/-- The four edge masks as indicators. -/
theorem isR_mXp : IsR mXp (fun y x => if ((ix2 y x : SG.Idx) 1).val = 511 then 0 else 1) :=
  isR_mask 1 _ 511 (by norm_num) _ _ ofBits_0 ofBits_1
theorem isR_mXm : IsR mXm (fun y x => if ((ix2 y x : SG.Idx) 1).val = 0 then 0 else 1) :=
  isR_mask 1 _ 0 (by norm_num) _ _ ofBits_0 ofBits_1
theorem isR_mYp : IsR mYp (fun y x => if ((ix2 y x : SG.Idx) 0).val = 511 then 0 else 1) :=
  isR_mask 0 _ 511 (by norm_num) _ _ ofBits_0 ofBits_1
theorem isR_mYm : IsR mYm (fun y x => if ((ix2 y x : SG.Idx) 0).val = 0 then 0 else 1) :=
  isR_mask 0 _ 0 (by norm_num) _ _ ofBits_0 ofBits_1

theorem isR_vH11 {vx : V2} {gx : Grid} (hx : IsR vx gx) : IsR (vH11 vx) (h11 gx) :=
  (isR_cst _ 1 ofBits_1).addf (((isR_cst _ 25 ofBits_25).mulf hx).mulf hx)
theorem isR_vH12 {vx vy : V2} {gx gy : Grid} (hx : IsR vx gx) (hy : IsR vy gy) : IsR (vH12 vx vy) (h12K gx gy) :=
  ((isR_cst _ 50 ofBits_50).mulf hx).mulf hy
theorem isR_vH22 {vy : V2} {gy : Grid} (hy : IsR vy gy) : IsR (vH22 vy) (h22 gy) :=
  (isR_cst _ 1 ofBits_1).addf (((isR_cst _ 25 ofBits_25).mulf hy).mulf hy)

theorem isR_vSxp {u : V2} {g : Grid} (hu : IsR u g) : IsR (vSxp u) (sxp g) := hu.sxp _ isR_mXp
theorem isR_vSxm {u : V2} {g : Grid} (hu : IsR u g) : IsR (vSxm u) (sxm g) := hu.sxm _ isR_mXm
theorem isR_vSyp {u : V2} {g : Grid} (hu : IsR u g) : IsR (vSyp u) (syp g) := hu.syp _ isR_mYp
theorem isR_vSym {u : V2} {g : Grid} (hu : IsR u g) : IsR (vSym u) (sym g) := hu.sym _ isR_mYm

/-- The operator value holds `axK`. -/
theorem isR_vAx {H11 H12 H22 u : V2} {a11 a12 a22 g : Grid} (h1 : IsR H11 a11) (h2 : IsR H12 a12) (h3 : IsR H22 a22)
    (hu : IsR u g) : IsR (vAx H11 H12 H22 u) (axK ck 2 c4 a11 a12 a22 g) :=
  ((isR_cst _ ck ofBits_ck).mulf hu).subf
    (((h1.mulf (((isR_vSxp hu).subf ((isR_cst _ 2 ofBits_2).mulf hu)).addf (isR_vSxm hu))).addf
        (h2.mulf ((isR_cst _ c4 ofBits_c4).mulf
          ((isR_vSyp ((isR_vSxp hu).subf (isR_vSxm hu))).subf (isR_vSym ((isR_vSxp hu).subf (isR_vSxm hu))))))).addf
      (h3.mulf (((isR_vSyp hu).subf ((isR_cst _ 2 ofBits_2).mulf hu)).addf (isR_vSym hu))))

/-- A lattice sum holds `rs`. -/
theorem isR1_vRs {a : V2} {f : Grid} (ha : IsR a f) : IsR1 (vRs a) (rs f) :=
  isR1_rsum ha _ _ _ _ _ _

theorem isR1_vQ0 {A0 u0 : V2} {a g : Grid} (hA : IsR A0 a) (hu : IsR u0 g) :
    IsR1 (vQ0 A0 u0) ((0 + rs (sq a)) + c105 * rs (sq g)) :=
  ((isR1_cst1 _ 0 ofBits_0).addf (isR1_vRs (hA.mulf hA))).addf ((isR1_cst1 _ c105 ofBits_c105).mulf (isR1_vRs (hu.mulf hu)))

theorem isR1_vMid {q : V1} {up u A : V2} {r : ℝ} {gp g a : Grid} (hq : IsR1 q r) (hp : IsR up gp) (hu : IsR u g)
    (hA : IsR A a) :
    IsR1 (vMid q up u A) (((r + rs (sq (plus g a))) + rs (sq g)) - 2 * rs (pr gp (plus g a))) :=
  ((hq.addf (isR1_vRs ((hu.addf hA).mulf (hu.addf hA)))).addf (isR1_vRs (hu.mulf hu))).subf
    ((isR1_cst1 _ 2 ofBits_2).mulf (isR1_vRs (hp.mulf (hu.addf hA))))

theorem isR1_vLast {q : V1} {up u A : V2} {r : ℝ} {gp g a : Grid} (hq : IsR1 q r) (hp : IsR up gp) (hu : IsR u g)
    (hA : IsR A a) :
    IsR1 (vLast q up u A) ((r + rs (sq (plus g a))) - 2 * rs (pr gp (plus g a))) :=
  (hq.addf (isR1_vRs ((hu.addf hA).mulf (hu.addf hA)))).subf
    ((isR1_cst1 _ 2 ofBits_2).mulf (isR1_vRs (hp.mulf (hu.addf hA))))

/-- The running scalar after the seven slices holds `qK`. -/
theorem isR1_vQ {vx vy u0 u1 u2 u3 u4 u5 u6 : V2} {gx gy : Grid} {g : Fin 7 → Grid}
    (hx : IsR vx gx) (hy : IsR vy gy) (h0 : IsR u0 (g 0)) (h1 : IsR u1 (g 1)) (h2 : IsR u2 (g 2)) (h3 : IsR u3 (g 3))
    (h4 : IsR u4 (g 4)) (h5 : IsR u5 (g 5)) (h6 : IsR u6 (g 6)) :
    IsR1 (vQ vx vy u0 u1 u2 u3 u4 u5 u6)
      (qK c105 2 g (fun t => axK ck 2 c4 (h11 gx) (h12K gx gy) (h22 gy) (g t))) := by
  have A := fun {u : V2} {f : Grid} (hu : IsR u f) => isR_vAx (isR_vH11 hx) (isR_vH12 hx hy) (isR_vH22 hy) hu
  exact isR1_vLast (isR1_vMid (isR1_vMid (isR1_vMid (isR1_vMid (isR1_vMid (isR1_vQ0 (A h0) h0)
    h0 h1 (A h1)) h1 h2 (A h2)) h2 h3 (A h3)) h3 h4 (A h4)) h4 h5 (A h5)) h5 h6 (A h6)

end Cert.KernelIdeal.KV

end
-- ==== Proof.KernelBlock.lean ====
/-
  One grid point of the kernel: what the body stores, from the point's three input blocks.

  A time slice `[1, 1, 512, 512]` cut from the block `[1, 7, 512, 512]` at entry `k` and viewed as `[512, 512]` holds
  the block's entries `(0, k, y, x)`; a velocity block `[1, 512, 512]` viewed as `[512, 512]` holds its entries
  `(0, y, x)`.  So when the blocks hold real grids, the body's store holds, at every index of the output block, the
  quadratic form `Stencil.qK` of those grids.
-/
import proofs.«172075_j85804856639623_2_alg».proof.Proof.KernelReal
import Idealize.ShloMosaic.Lib.Pipeline.Value

set_option maxRecDepth 16384

noncomputable section

namespace Cert.KernelIdeal.KV

open Idealize.ShloMosaic Idealize.ShloMosaic.ValueIdx Cert.KernelIdeal Cert.KernelIdeal.Gen
open Cert.VecReal Cert.Stencil Cert.Consts Cert.Spec

/-- Entry `k` of the block as a lattice vector. -/
theorem isR_slice (X : Vec Idealize.ShloMosaic.Ideal S1x7x512x512 .f32) (g : Fin 7 → Grid)
    (hX : ∀ k y x, X (ix4 0 k y x) = ((g k y x : ℝ) : EReal)) (k : Fin 7)
    (inb : ∀ a, (![0, k.val, 0, 0] : Fin 4 → Nat) a + S1x1x512x512.size a ≤ S1x7x512x512.size a) :
    IsR (slice (View.ld X (Rect.unit (s := S1x7x512x512) ![0, k.val, 0, 0] S1x1x512x512.size inb))) (g k) := by
  intro y x
  unfold slice
  rw [shapeCast_apply _ _ (ix2 y x) (ix4 0 0 y x) (by
    rw [Shape.rowMajor_val_four, Shape.rowMajor_val_two]
    show ((0 * 1 + 0) * 512 + y.val) * 512 + x.val = y.val * 512 + x.val
    omega)]
  rw [← hX k y x]
  show X _ = X _
  refine congrArg X (funext fun a => Fin.ext ?_)
  match a with
  | ⟨0, _⟩ => rfl
  | ⟨1, _⟩ => show k.val + 1 * 0 = k.val; omega
  | ⟨2, _⟩ => show 0 + 1 * y.val = y.val; omega
  | ⟨3, _⟩ => show 0 + 1 * x.val = x.val; omega

/-- A velocity block as a lattice vector. -/
theorem isR_field (X : Vec Idealize.ShloMosaic.Ideal S1x512x512 .f32) (g : Grid)
    (hX : ∀ y x, X (ix3 0 y x) = ((g y x : ℝ) : EReal))
    (inb : ∀ a, (![0, 0, 0] : Fin 3 → Nat) a + S1x512x512.size a ≤ S1x512x512.size a) :
    IsR (field (View.ld X (Rect.unit (s := S1x512x512) ![0, 0, 0] S1x512x512.size inb))) g := by
  intro y x
  unfold field
  rw [shapeCast_apply _ _ (ix2 y x) (ix3 0 y x) (by
    rw [Shape.rowMajor_val_three, Shape.rowMajor_val_two]
    show (0 * 512 + y.val) * 512 + x.val = y.val * 512 + x.val
    omega)]
  rw [← hX y x]
  show X _ = X _
  refine congrArg X (funext fun a => Fin.ext ?_)
  match a with
  | ⟨0, _⟩ => rfl
  | ⟨1, _⟩ => show 0 + 1 * y.val = y.val; omega
  | ⟨2, _⟩ => show 0 + 1 * x.val = x.val; omega

theorem hz3 : (![0, 0, 0] : Fin 3 → Nat) = fun _ => 0 := funext fun a => by fin_cases a <;> rfl

/-- The body's store, at any index of the output block, is the quadratic form of the blocks' grids. -/
theorem out_val (X0 : Vec Idealize.ShloMosaic.Ideal S1x7x512x512 .f32) (X1 X2 : Vec Idealize.ShloMosaic.Ideal S1x512x512 .f32)
    (g : Fin 7 → Grid) (gx gy : Grid)
    (h0 : ∀ k y x, X0 (ix4 0 k y x) = ((g k y x : ℝ) : EReal))
    (h1 : ∀ y x, X1 (ix3 0 y x) = ((gx y x : ℝ) : EReal))
    (h2 : ∀ y x, X2 (ix3 0 y x) = ((gy y x : ℝ) : EReal)) (j : S1x8x128.Idx) :
    out0_3 (F := Idealize.ShloMosaic.Ideal) X0 X1 X2 j
      = ((qK c105 2 g (fun t => axK ck 2 c4 (h11 gx) (h12K gx gy) (h22 gy) (g t)) : ℝ) : EReal) := by
  rw [out_eq, View.canon_unit_zero hz3]
  rw [broadcastTo_apply _ _ j (ix3 0 0 0) (fun a => by
    match a with
    | ⟨0, _⟩ => rfl
    | ⟨1, _⟩ => rfl
    | ⟨2, _⟩ => rfl)]
  rw [shapeCast_self]
  rw [shapeCast_apply _ _ (ix3 0 0 0) (ix2 0 0) (by
    rw [Shape.rowMajor_val_three, Shape.rowMajor_val_two]; rfl)]
  exact isR1_vQ (isR_field X1 gx h1 _) (isR_field X2 gy h2 _)
    (isR_slice X0 g h0 0 _) (isR_slice X0 g h0 1 _) (isR_slice X0 g h0 2 _) (isR_slice X0 g h0 3 _)
    (isR_slice X0 g h0 4 _) (isR_slice X0 g h0 5 _) (isR_slice X0 g h0 6 _)

end Cert.KernelIdeal.KV

end
-- ==== Proof.KernelValue.lean ====
/-
  The kernel's run, read: the result array is the common specification `Spec.QK` of the argument.

  The region has eight grid points, one per batch.  At point `t` the three input blocks are batch `t` of the seven
  time slices and of the two velocity grids, which the host slices and reshapes out of the argument before the region;
  the output block is row `t` of an `[8, 8, 128]` array, filled with the batch's quadratic form.  The eight output blocks
  tile that array, so after the region it holds the quadratic form of batch `i₀` at `(i₀, i₁, i₂)`; the host then keeps
  entry `(b, 0, 0)` for each batch.
-/
import proofs.«172075_j85804856639623_2_alg».proof.Proof.KernelBlock
import Idealize.ShloMosaic.Lib.Pipeline.Value
import Idealize.ShloMosaic.Lib.StableHlo.Run

set_option maxRecDepth 16384

noncomputable section

namespace Cert.KernelIdeal.KV

open Idealize.ShloMosaic Idealize.ShloMosaic.TcCoe Idealize.ShloMosaic.ValueIdx Idealize.SL.Sem
open Cert.KernelIdeal Cert.KernelIdeal.Gen Cert.Stencil Cert.Consts Cert.Spec
open Idealize.ShloMosaic.Pipeline (Dat)

variable (m : (ℓ : Loc nD τ sig) → Buf (Elt Idealize.ShloMosaic.Ideal) ℓ) (ρ : Dev nD → PrngReg)

/-- The four index maps, decided over the eight grid points: block `t` on the batch axis, block 0 on the others. -/
theorem idx_facts : ∀ t : Fin cfg0.N,
    win0_0.index t (0 : Fin 4) = t.val ∧ win0_0.index t (1 : Fin 4) = 0 ∧ win0_0.index t (2 : Fin 4) = 0
    ∧ win0_0.index t (3 : Fin 4) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ t.val < 8 :=
  (by decide +kernel : ∀ t : Fin grid0.N, _)

/-! ## The three input arrays as the region finds them -/

/-- The time slices: entries 0–6 of the argument's second axis. -/
theorem V_v0 (c : Dev nD) : (V m c main_v0 : S8x7x512x512.Idx → EReal)
    = extractStridedSlice S8x7x512x512 ![0, 0, 0, 0] (m ((c : Thread nD τ).loc main_arg0) : S8x9x512x512.Idx → EReal)
        Gen.slices_S8x9x512x512_S8x7x512x512_0_0_0_0 := by
  show StableHlo.after hostOps0 (fun b => m (c, b)) (Proc.devRef .tc main_v0) = _
  after_results

/-- The first velocity grid: entry 7, its unit axis dropped. -/
theorem V_v2 (c : Dev nD) : (V m c main_v2 : S8x512x512.Idx → EReal)
    = shapeCast S8x512x512 (extractStridedSlice S8x1x512x512 ![0, 7, 0, 0]
        (m ((c : Thread nD τ).loc main_arg0) : S8x9x512x512.Idx → EReal) Gen.slices_S8x9x512x512_S8x1x512x512_0_7_0_0)
        Gen.shapeCasts_S8x1x512x512_S8x512x512 := by
  show StableHlo.after hostOps0 (fun b => m (c, b)) (Proc.devRef .tc main_v2) = _
  after_results
  rfl

/-- The second velocity grid: entry 8, its unit axis dropped. -/
theorem V_v4 (c : Dev nD) : (V m c main_v4 : S8x512x512.Idx → EReal)
    = shapeCast S8x512x512 (extractStridedSlice S8x1x512x512 ![0, 8, 0, 0]
        (m ((c : Thread nD τ).loc main_arg0) : S8x9x512x512.Idx → EReal) Gen.slices_S8x9x512x512_S8x1x512x512_0_8_0_0)
        Gen.shapeCasts_S8x1x512x512_S8x512x512 := by
  show StableHlo.after hostOps0 (fun b => m (c, b)) (Proc.devRef .tc main_v4) = _
  after_results
  rfl

theorem V_v0_apply (c : Dev nD) (b : Fin 8) (k : Fin 7) (y x : Fin 512) :
    (V m c main_v0 : S8x7x512x512.Idx → EReal) (ix4 b k y x)
      = (m ((c : Thread nD τ).loc main_arg0) : S8x9x512x512.Idx → EReal) (ix4 b (up7 k) y x) := by
  rw [V_v0]
  exact extractStridedSlice_apply _ _ _ _ _ (fun a => match a with
    | ⟨0, _⟩ => by show b.val = 0 + b.val; omega
    | ⟨1, _⟩ => by show k.val = 0 + k.val; omega
    | ⟨2, _⟩ => by show y.val = 0 + y.val; omega
    | ⟨3, _⟩ => by show x.val = 0 + x.val; omega)

theorem V_v2_apply (c : Dev nD) (b : Fin 8) (y x : Fin 512) :
    (V m c main_v2 : S8x512x512.Idx → EReal) (ix3 b y x)
      = (m ((c : Thread nD τ).loc main_arg0) : S8x9x512x512.Idx → EReal) (ix4 b 7 y x) := by
  rw [V_v2]
  rw [shapeCast_apply _ _ (ix3 b y x) (ix4 b 0 y x) (by
    rw [Shape.rowMajor_val_four, Shape.rowMajor_val_three]
    show ((b.val * 1 + 0) * 512 + y.val) * 512 + x.val = (b.val * 512 + y.val) * 512 + x.val
    omega)]
  exact extractStridedSlice_apply _ _ _ _ _ (fun a => match a with
    | ⟨0, _⟩ => by show b.val = 0 + b.val; omega
    | ⟨1, _⟩ => by show 7 = 7 + 0; omega
    | ⟨2, _⟩ => by show y.val = 0 + y.val; omega
    | ⟨3, _⟩ => by show x.val = 0 + x.val; omega)

theorem V_v4_apply (c : Dev nD) (b : Fin 8) (y x : Fin 512) :
    (V m c main_v4 : S8x512x512.Idx → EReal) (ix3 b y x)
      = (m ((c : Thread nD τ).loc main_arg0) : S8x9x512x512.Idx → EReal) (ix4 b 8 y x) := by
  rw [V_v4]
  rw [shapeCast_apply _ _ (ix3 b y x) (ix4 b 0 y x) (by
    rw [Shape.rowMajor_val_four, Shape.rowMajor_val_three]
    show ((b.val * 1 + 0) * 512 + y.val) * 512 + x.val = (b.val * 512 + y.val) * 512 + x.val
    omega)]
  exact extractStridedSlice_apply _ _ _ _ _ (fun a => match a with
    | ⟨0, _⟩ => by show b.val = 0 + b.val; omega
    | ⟨1, _⟩ => by show 8 = 8 + 0; omega
    | ⟨2, _⟩ => by show y.val = 0 + y.val; omega
    | ⟨3, _⟩ => by show x.val = 0 + x.val; omega)

/-! ## The output array -/

/-- What the output array ends holding: the batch's quadratic form along its whole `[8, 128]` row. -/
def G5 (x0 : SArg.Idx → EReal) : S8x8x128.Idx → EReal := fun i => ((qv x0 (i 0) : ℝ) : EReal)

/-- WHAT POINT `t` WRITES BACK is block `t` of `G5` of the argument. -/
theorem flushed_eq (hfin : ∀ c : Dev nD, IsReal (m ((c : Thread nD τ).loc main_arg0))) (c : Dev nD) (t : Fin cfg0.N) :
    (dats m 0 c).flushed 3 t
      = ((cfg0.win 3).blk t).view.read (Elt Idealize.ShloMosaic.Ideal) (G5 (m ((c : Thread nD τ).loc main_arg0))) := by
  show (cfg0.win 3).cut (grid0.coords t) ((dats m 0 c).after 3 t) = _
  rw [after0_3]
  obtain ⟨e00, e01, e02, e03, e10, e11, e12, e20, e21, e22, e30, e31, e32, ht⟩ := idx_facts t
  funext j
  show out0_3 (iblk m c 0 t) (iblk m c 1 t) (iblk m c 2 t) j
    = G5 (m ((c : Thread nD τ).loc main_arg0)) (((cfg0.win 3).blk t).view.emb j)
  rw [out_val (iblk m c 0 t) (iblk m c 1 t) (iblk m c 2 t)
    (fun k => gridOf (m ((c : Thread nD τ).loc main_arg0)) ⟨t.val, ht⟩ (up7 k))
    (gridOf (m ((c : Thread nD τ).loc main_arg0)) ⟨t.val, ht⟩ 7)
    (gridOf (m ((c : Thread nD τ).loc main_arg0)) ⟨t.val, ht⟩ 8) ?h0 ?h1 ?h2 j]
  case h0 =>
    intro k y x
    show (V m c main_v0 : S8x7x512x512.Idx → EReal) (((cfg0.win 0).blk t).view.emb (ix4 0 k y x)) = _
    have e : ((cfg0.win 0).blk t).view.emb (ix4 0 k y x) = ix4 (⟨t.val, ht⟩ : Fin 8) k y x := by
      funext a; apply Fin.ext
      match a with
      | ⟨0, _⟩ => show win0_0.index t (0 : Fin 4) * 1 + 1 * 0 = t.val; omega
      | ⟨1, _⟩ => show win0_0.index t (1 : Fin 4) * 7 + 1 * k.val = k.val; omega
      | ⟨2, _⟩ => show win0_0.index t (2 : Fin 4) * 512 + 1 * y.val = y.val; omega
      | ⟨3, _⟩ => show win0_0.index t (3 : Fin 4) * 512 + 1 * x.val = x.val; omega
    rw [e, V_v0_apply]
    exact hfin c _
  case h1 =>
    intro y x
    show (V m c main_v2 : S8x512x512.Idx → EReal) (((cfg0.win 1).blk t).view.emb (ix3 0 y x)) = _
    have e : ((cfg0.win 1).blk t).view.emb (ix3 0 y x) = ix3 (⟨t.val, ht⟩ : Fin 8) y x := by
      funext a; apply Fin.ext
      match a with
      | ⟨0, _⟩ => show win0_1.index t (0 : Fin 3) * 1 + 1 * 0 = t.val; omega
      | ⟨1, _⟩ => show win0_1.index t (1 : Fin 3) * 512 + 1 * y.val = y.val; omega
      | ⟨2, _⟩ => show win0_1.index t (2 : Fin 3) * 512 + 1 * x.val = x.val; omega
    rw [e, V_v2_apply]
    exact hfin c _
  case h2 =>
    intro y x
    show (V m c main_v4 : S8x512x512.Idx → EReal) (((cfg0.win 2).blk t).view.emb (ix3 0 y x)) = _
    have e : ((cfg0.win 2).blk t).view.emb (ix3 0 y x) = ix3 (⟨t.val, ht⟩ : Fin 8) y x := by
      funext a; apply Fin.ext
      match a with
      | ⟨0, _⟩ => show win0_2.index t (0 : Fin 3) * 1 + 1 * 0 = t.val; omega
      | ⟨1, _⟩ => show win0_2.index t (1 : Fin 3) * 512 + 1 * y.val = y.val; omega
      | ⟨2, _⟩ => show win0_2.index t (2 : Fin 3) * 512 + 1 * x.val = x.val; omega
    rw [e, V_v4_apply]
    exact hfin c _
  have hb : ((cfg0.win 3).blk t).view.emb j (0 : Fin 3) = (⟨t.val, ht⟩ : Fin 8) := by
    apply Fin.ext
    show win0_3.index t (0 : Fin 3) * 1 + 1 * (j 0).val = t.val
    have hj : (j 0).val < 1 := (j 0).isLt
    omega
  show _ = ((qv (m ((c : Thread nD τ).loc main_arg0)) (((cfg0.win 3).blk t).view.emb j (0 : Fin 3)) : ℝ) : EReal)
  rw [hb]
  rfl

/-- An index of the output array is in point `t`'s block iff each coordinate is in the block's range on its axis. -/
theorem mem_blk3 (t : Fin cfg0.N) (i : S8x8x128.Idx) :
    i ∈ ((cfg0.win 3).blk t).view.set ↔ ∀ a : Fin 3, win0_3.index t a * S1x8x128.size a ≤ (i a).val
      ∧ (i a).val < win0_3.index t a * S1x8x128.size a + S1x8x128.size a := by
  show i ∈ ((View.whole main_v5).slice (win0_3.rect t)).set ↔ _
  rw [View.set_slice_whole, Rect.mem_set_unit]
  exact Iff.rfl

/-- Every index of the output array is in the block of the point its batch coordinate names. -/
theorem cover3 (i : S8x8x128.Idx) :
    ∃ t : Fin cfg0.N, (cfg0.win 3).flush t = true ∧ i ∈ ((cfg0.win 3).blk t).view.set := by
  have hi0 : (i 0).val < 8 := (i 0).isLt
  have hi1 : (i 1).val < 8 := (i 1).isLt
  have hi2 : (i 2).val < 128 := (i 2).isLt
  have hN : (i 0).val < cfg0.N := by have := N_0; show (i 0).val < grid0.N; omega
  refine ⟨⟨(i 0).val, hN⟩, flush0_3 _, ?_⟩
  rw [mem_blk3]
  obtain ⟨-, -, -, -, -, -, -, -, -, -, e30', e31, e32, -⟩ := idx_facts ⟨(i 0).val, hN⟩
  have e30 : win0_3.index ⟨(i 0).val, hN⟩ (0 : Fin 3) = (i 0).val := e30'
  intro a
  match a with
  | ⟨0, _⟩ =>
    show win0_3.index ⟨(i 0).val, hN⟩ (0 : Fin 3) * 1 ≤ (i 0).val ∧ (i 0).val < win0_3.index ⟨(i 0).val, hN⟩ (0 : Fin 3) * 1 + 1
    rw [e30]; omega
  | ⟨1, _⟩ =>
    show win0_3.index ⟨(i 0).val, hN⟩ (1 : Fin 3) * 8 ≤ (i 1).val ∧ (i 1).val < win0_3.index ⟨(i 0).val, hN⟩ (1 : Fin 3) * 8 + 8
    rw [e31]; omega
  | ⟨2, _⟩ =>
    show win0_3.index ⟨(i 0).val, hN⟩ (2 : Fin 3) * 128 ≤ (i 2).val ∧ (i 2).val < win0_3.index ⟨(i 0).val, hN⟩ (2 : Fin 3) * 128 + 128
    rw [e32]; omega

/-- THE OUTPUT ARRAY after the region. -/
theorem final5 (hfin : ∀ c : Dev nD, IsReal (m ((c : Thread nD τ).loc main_arg0))) (c : Dev nD) :
    (dats m 0 c).arrAt 3 cfg0.N = G5 (m ((c : Thread nD τ).loc main_arg0)) :=
  (dats m 0 c).arrAt_eq_of_cover 3 (G5 (m ((c : Thread nD τ).loc main_arg0))) (fun t _ => flushed_eq m hfin c t) cover3

/-! ## The host lines after the region, and the run -/

/-- The result: entry `(b, 0, 0)` of the output array, for each batch. -/
theorem tail7 (hfin : ∀ c : Dev nD, IsReal (m ((c : Thread nD τ).loc main_arg0))) (c : Dev nD) :
    Pipeline.afterTail₀ cfgs (dats m) 0 (V0 m) [hostOps1] c main_v7 = QK (m ((c : Thread nD τ).loc main_arg0)) := by
  unfold Pipeline.afterTail₀
  show StableHlo.after hostOps1 _ (Proc.devRef .tc main_v7) = _
  after_results
  have hA : Pipeline.withArrays (cfgs 0).spec c (V0 m c) (fun w => (dats m 0 c).arrAt w (cfgs 0).N)
      (Proc.devRef .tc main_v5) = G5 (m ((c : Thread nD τ).loc main_arg0)) :=
    (Pipeline.withArrays_arr spec0 launch0.win.arr_inj c _ _ 3).trans (final5 m hfin c)
  funext i
  obtain ⟨b, rfl⟩ : ∃ b : Fin 8, i = ix1 b := ⟨i 0, eq_ix1 i⟩
  show shapeCast S8 (extractStridedSlice S8x1x1 ![0, 0, 0]
      (Pipeline.withArrays (cfgs 0).spec c (V0 m c) (fun w => (dats m 0 c).arrAt w (cfgs 0).N) (Proc.devRef .tc main_v5))
      Gen.slices_S8x8x128_S8x1x1_0_0_0) Gen.shapeCasts_S8x1x1_S8 (ix1 b) = _
  rw [hA]
  rw [shapeCast_apply _ _ (ix1 b) (ix3 b 0 0) (by
    rw [Shape.rowMajor_val_three, Shape.rowMajor_val_one]
    show (b.val * 1 + 0) * 1 + 0 = b.val
    omega)]
  rw [extractStridedSlice_apply _ _ _ (ix3 b 0 0) (ix3 b 0 0) (fun a => match a with
    | ⟨0, _⟩ => by show b.val = 0 + b.val; omega
    | ⟨1, _⟩ => by show 0 = 0 + 0; rfl
    | ⟨2, _⟩ => by show 0 = 0 + 0; rfl)]
  rfl

/-- THE RUN: every weakly fair execution of the idealized kernel's @main ends with the result at `Spec.QK` of the
    argument and the argument unchanged, when the argument's entries are real. -/
theorem run (hfin : ∀ c : Dev nD, IsReal (m ((c : Thread nD τ).loc main_arg0))) :
    θ_run defs (onTc (τ := τ) (main (F := Idealize.ShloMosaic.Ideal))) ⟨m, fun _ => 0, ρ⟩ (fun r => ∀ c : Dev nD,
      r.2.mem ((c.tc : Thread nD τ).loc main_v7) = QK (m ((c.tc : Thread nD τ).loc main_arg0))
      ∧ r.2.mem ((c.tc : Thread nD τ).loc main_arg0) = m ((c.tc : Thread nD τ).loc main_arg0)) :=
  (θ_run defs _ _).mono (fun r h c =>
      ⟨((h c).2 main_v7 (Pipeline.mem_restRefs_of main_v7 (by decide) (by decide))).trans (tail7 m hfin c),
       ((h c).2 main_arg0 (Pipeline.mem_restRefs_of main_arg0 (by decide) (by decide))).trans (W_main_arg0 m (dats m) c)⟩)
    (run_main m ρ)

end Cert.KernelIdeal.KV

end
-- ==== Proof.StencilRef.lean ====
/-
  The reference's spelling of the same mathematics, over the reals.

  The reference pads each slice with a ring of zeros (`zext g p q`: the padded array at row `p`, column `q`, both from 0
  to 513) and reads its nine unit-offset windows; each window is a zero-boundary shift of the slice, the four corner
  windows two shifts in a row.  It multiplies `A u` by 1 before adding `u`, and it adds up each kind of term over all the
  slices before combining the kinds (`qR`); that is the slice-by-slice sum `qK`.
-/
import proofs.«172075_j85804856639623_2_alg».proof.Proof.Stencil

noncomputable section

namespace Cert.Stencil

/-- The slice padded with one ring of zeros, at padded row `p` and column `q`. -/
def zext (g : Grid) (p q : ℕ) : ℝ :=
  if h : (1 ≤ p ∧ p < 513) ∧ (1 ≤ q ∧ q < 513) then g ⟨p - 1, by omega⟩ ⟨q - 1, by omega⟩ else 0

theorem zext_11 (g : Grid) (y x : Fin 512) : zext g (1 + y.val) (1 + x.val) = g y x := by
  have hy := y.isLt; have hx := x.isLt
  unfold zext
  rw [dif_pos ⟨⟨by omega, by omega⟩, ⟨by omega, by omega⟩⟩]
  exact congrArg₂ g (Fin.ext (by show 1 + y.val - 1 = y.val; omega)) (Fin.ext (by show 1 + x.val - 1 = x.val; omega))

theorem zext_12 (g : Grid) (y x : Fin 512) : zext g (1 + y.val) (2 + x.val) = sxp g y x := by
  have hy := y.isLt; have hx := x.isLt
  unfold zext sxp
  by_cases h : x.val + 1 < 512
  · rw [dif_pos h, dif_pos ⟨⟨by omega, by omega⟩, ⟨by omega, by omega⟩⟩]
    exact congrArg₂ g (Fin.ext (by show 1 + y.val - 1 = y.val; omega)) (Fin.ext (by show 2 + x.val - 1 = x.val + 1; omega))
  · rw [dif_neg h, dif_neg (by omega)]

theorem zext_10 (g : Grid) (y x : Fin 512) : zext g (1 + y.val) x.val = sxm g y x := by
  have hy := y.isLt; have hx := x.isLt
  unfold zext sxm
  by_cases h : 1 ≤ x.val
  · rw [dif_pos h, dif_pos ⟨⟨by omega, by omega⟩, ⟨by omega, by omega⟩⟩]
    exact congrArg₂ g (Fin.ext (by show 1 + y.val - 1 = y.val; omega)) (Fin.ext rfl)
  · rw [dif_neg h, dif_neg (by omega)]

theorem zext_21 (g : Grid) (y x : Fin 512) : zext g (2 + y.val) (1 + x.val) = syp g y x := by
  have hy := y.isLt; have hx := x.isLt
  unfold zext syp
  by_cases h : y.val + 1 < 512
  · rw [dif_pos h, dif_pos ⟨⟨by omega, by omega⟩, ⟨by omega, by omega⟩⟩]
    exact congrArg₂ g (Fin.ext (by show 2 + y.val - 1 = y.val + 1; omega)) (Fin.ext (by show 1 + x.val - 1 = x.val; omega))
  · rw [dif_neg h, dif_neg (by omega)]

theorem zext_01 (g : Grid) (y x : Fin 512) : zext g y.val (1 + x.val) = sym g y x := by
  have hy := y.isLt; have hx := x.isLt
  unfold zext sym
  by_cases h : 1 ≤ y.val
  · rw [dif_pos h, dif_pos ⟨⟨by omega, by omega⟩, ⟨by omega, by omega⟩⟩]
    exact congrArg₂ g (Fin.ext rfl) (Fin.ext (by show 1 + x.val - 1 = x.val; omega))
  · rw [dif_neg h, dif_neg (by omega)]

theorem zext_22 (g : Grid) (y x : Fin 512) : zext g (2 + y.val) (2 + x.val) = syp (sxp g) y x := by
  have hy := y.isLt; have hx := x.isLt
  unfold zext syp sxp
  by_cases h : y.val + 1 < 512
  · by_cases h' : x.val + 1 < 512
    · rw [dif_pos h, dif_pos h', dif_pos ⟨⟨by omega, by omega⟩, ⟨by omega, by omega⟩⟩]
      exact congrArg₂ g (Fin.ext (by show 2 + y.val - 1 = y.val + 1; omega)) (Fin.ext (by show 2 + x.val - 1 = x.val + 1; omega))
    · rw [dif_pos h, dif_neg h', dif_neg (by omega)]
  · rw [dif_neg h, dif_neg (by omega)]

theorem zext_20 (g : Grid) (y x : Fin 512) : zext g (2 + y.val) x.val = syp (sxm g) y x := by
  have hy := y.isLt; have hx := x.isLt
  unfold zext syp sxm
  by_cases h : y.val + 1 < 512
  · by_cases h' : 1 ≤ x.val
    · rw [dif_pos h, dif_pos h', dif_pos ⟨⟨by omega, by omega⟩, ⟨by omega, by omega⟩⟩]
      exact congrArg₂ g (Fin.ext (by show 2 + y.val - 1 = y.val + 1; omega)) (Fin.ext rfl)
    · rw [dif_pos h, dif_neg h', dif_neg (by omega)]
  · rw [dif_neg h, dif_neg (by omega)]

theorem zext_02 (g : Grid) (y x : Fin 512) : zext g y.val (2 + x.val) = sym (sxp g) y x := by
  have hy := y.isLt; have hx := x.isLt
  unfold zext sym sxp
  by_cases h : 1 ≤ y.val
  · by_cases h' : x.val + 1 < 512
    · rw [dif_pos h, dif_pos h', dif_pos ⟨⟨by omega, by omega⟩, ⟨by omega, by omega⟩⟩]
      exact congrArg₂ g (Fin.ext rfl) (Fin.ext (by show 2 + x.val - 1 = x.val + 1; omega))
    · rw [dif_pos h, dif_neg h', dif_neg (by omega)]
  · rw [dif_neg h, dif_neg (by omega)]

theorem zext_00 (g : Grid) (y x : Fin 512) : zext g y.val x.val = sym (sxm g) y x := by
  have hy := y.isLt; have hx := x.isLt
  unfold zext sym sxm
  by_cases h : 1 ≤ y.val
  · by_cases h' : 1 ≤ x.val
    · rw [dif_pos h, dif_pos h', dif_pos ⟨⟨by omega, by omega⟩, ⟨by omega, by omega⟩⟩]
    · rw [dif_pos h, dif_neg h', dif_neg (by omega)]
  · rw [dif_neg h, dif_neg (by omega)]

/-- Slice `1 + k` for `k` among six, or among five; slice `k` for `k` among six. -/
def s6 (k : Fin 6) : Fin 7 := ⟨1 + k.val, by have := k.isLt; omega⟩
def s5 (k : Fin 5) : Fin 7 := ⟨1 + k.val, by have := k.isLt; omega⟩
def p6 (k : Fin 6) : Fin 7 := ⟨k.val, by have := k.isLt; omega⟩

/-- `M u = u + 1 · A u`, the one written out. -/
def mR (c1 : ℝ) (u A : Grid) : Grid := fun y x => u y x + c1 * A y x

/-- The quadratic form with each kind of term added over the slices first; every sum starts from an explicit zero. -/
def qR (c105 c2 c1 : ℝ) (u A : Fin 7 → Grid) : ℝ :=
  ((((0 + rs (sq (A 0))) + c105 * (0 + rs (sq (u 0))))
      + (0 + ∑ k : Fin 6, (0 + rs (sq (mR c1 (u (s6 k)) (A (s6 k)))))))
      + (0 + ∑ k : Fin 5, (0 + rs (sq (u (s5 k))))))
    - c2 * (0 + ∑ k : Fin 6, (0 + rs (pr (u (p6 k)) (mR c1 (u (s6 k)) (A (s6 k))))))

theorem mR_one (u A : Grid) : mR 1 u A = plus u A := by
  funext y x; unfold mR plus; rw [one_mul]

/-- Regrouping the finite sums: the two accumulations agree. -/
theorem qR_eq_qK (c105 c2 : ℝ) (u A : Fin 7 → Grid) : qR c105 c2 1 u A = qK c105 c2 u A := by
  have e6 : s6 0 = 1 ∧ s6 1 = 2 ∧ s6 2 = 3 ∧ s6 3 = 4 ∧ s6 4 = 5 ∧ s6 5 = 6 := by decide
  have e5 : s5 0 = 1 ∧ s5 1 = 2 ∧ s5 2 = 3 ∧ s5 3 = 4 ∧ s5 4 = 5 := by decide
  have ep : p6 0 = 0 ∧ p6 1 = 1 ∧ p6 2 = 2 ∧ p6 3 = 3 ∧ p6 4 = 4 ∧ p6 5 = 5 := by decide
  obtain ⟨a1, a2, a3, a4, a5, a6⟩ := e6
  obtain ⟨b1, b2, b3, b4, b5⟩ := e5
  obtain ⟨d0, d1, d2, d3, d4, d5⟩ := ep
  unfold qR qK
  simp only [Fin.sum_univ_six, Fin.sum_univ_five, a1, a2, a3, a4, a5, a6, b1, b2, b3, b4, b5, d0, d1, d2, d3, d4, d5, mR_one]
  ring

end Cert.Stencil

end
-- ==== Proof.RefPoint.lean ====
/-
  The reference program read at an index, over the reals: everything before its sums.

  With the argument's entries real (`x0 j = r j`), each intermediate array of the reference holds a real expression
  of the batch's grids `u_t = r (b, t, ·, ·)`, `vx = r (b, 7, ·, ·)`, `vy = r (b, 8, ·, ·)`: the diffusion entries, the
  padded slice (a ring of zeros, `Stencil.zext`), its nine unit-offset windows (the zero-boundary shifts), the operator
  value `Stencil.axR`, and `M u = u + 1 · A u`.  Each fact is the generated read-at-an-index lemmas chained down to
  the argument, then the coercion from the reals pushed outward.
-/
import proofs.«172075_j85804856639623_2_alg».proof.Proof.Gen.ReferenceIdeal.Read
import proofs.«172075_j85804856639623_2_alg».proof.Proof.StencilRef
import proofs.«172075_j85804856639623_2_alg».proof.Proof.Spec
import Idealize.ShloMosaic.Lib.KernelVsHost
import Idealize.ShloMosaic.Lib.ValueIdx

set_option maxRecDepth 16384

noncomputable section

namespace Cert.ReferenceIdeal.RV

open Idealize.ShloMosaic Idealize.ShloMosaic.ValueIdx Idealize.SL.Sem
open Cert.ReferenceIdeal Cert.ReferenceIdeal.Gen Cert.ReferenceIdeal.Read
open Cert.Stencil Cert.Consts Cert.Spec

/-- Entry `t` of batch `b` of a real array, as a grid. -/
def ur (r : S8x9x512x512.Idx → ℝ) (b : Fin 8) (t : Fin 9) : Grid := fun y x => r (ix4 b t y x)

/-- The reference's undoubled mixed diffusion entry `25 vx vy`. -/
def h12R (gx gy : Grid) : Grid := fun y x => (25 * gx y x) * gy y x

variable (x0 : S8x9x512x512.Idx → EReal) (r : S8x9x512x512.Idx → ℝ) (hx : ∀ j, x0 j = ((r j : ℝ) : EReal))
include hx

/-- The time slices. -/
theorem v0_read (b : Fin 8) (t : Fin 7) (y x : Fin 512) :
    val_main_v0 (F := Idealize.ShloMosaic.Ideal) x0 (ix4 b t y x) = ((ur r b (up7 t) y x : ℝ) : EReal) := by
  rw [val_main_v0_apply, hx]
  exact congrArg (fun j => ((r j : ℝ) : EReal)) (funext fun a => Fin.ext (by
    match a with
    | ⟨0, _⟩ => rfl
    | ⟨1, _⟩ => rfl
    | ⟨2, _⟩ => rfl
    | ⟨3, _⟩ => rfl))

/-- The two velocity grids. -/
theorem v2_read (b : Fin 8) (y x : Fin 512) :
    val_main_v2 (F := Idealize.ShloMosaic.Ideal) x0 (ix3 b y x) = ((ur r b 7 y x : ℝ) : EReal) := by
  rw [val_main_v2_apply, val_main_v1_apply, hx]
  have hb := b.isLt; have hy := y.isLt; have hxx := x.isLt
  exact congrArg (fun j => ((r j : ℝ) : EReal)) (funext fun a => Fin.ext (by
    match a with
    | ⟨0, _⟩ => show ((b.val * 512 + y.val) * 512 + x.val) / 262144 = b.val; omega
    | ⟨1, _⟩ => rfl
    | ⟨2, _⟩ => show ((b.val * 512 + y.val) * 512 + x.val) / 512 % 512 = y.val; omega
    | ⟨3, _⟩ => show ((b.val * 512 + y.val) * 512 + x.val) % 512 = x.val; omega))

theorem v4_read (b : Fin 8) (y x : Fin 512) :
    val_main_v4 (F := Idealize.ShloMosaic.Ideal) x0 (ix3 b y x) = ((ur r b 8 y x : ℝ) : EReal) := by
  rw [val_main_v4_apply, val_main_v3_apply, hx]
  have hb := b.isLt; have hy := y.isLt; have hxx := x.isLt
  exact congrArg (fun j => ((r j : ℝ) : EReal)) (funext fun a => Fin.ext (by
    match a with
    | ⟨0, _⟩ => show ((b.val * 512 + y.val) * 512 + x.val) / 262144 = b.val; omega
    | ⟨1, _⟩ => rfl
    | ⟨2, _⟩ => show ((b.val * 512 + y.val) * 512 + x.val) / 512 % 512 = y.val; omega
    | ⟨3, _⟩ => show ((b.val * 512 + y.val) * 512 + x.val) % 512 = x.val; omega))

/-- The diffusion entries. -/
theorem v9_read (b : Fin 8) (y x : Fin 512) :
    val_main_v9 (F := Idealize.ShloMosaic.Ideal) x0 (ix3 b y x) = ((h11 (ur r b 7) y x : ℝ) : EReal) := by
  rw [val_main_v9_apply, val_main_v8_apply, val_main_cst_0_apply, val_main_v7_apply, val_main_v6_apply,
    val_main_v5_apply, val_main_cst_apply, v2_read x0 r hx]
  simp only [Ideal.addf_def, Ideal.mulf_def, Ideal.ofBits_def, ofBits_1, ofBits_25, ← EReal.coe_mul, ← EReal.coe_add]
  rfl

theorem v12_read (b : Fin 8) (y x : Fin 512) :
    val_main_v12 (F := Idealize.ShloMosaic.Ideal) x0 (ix3 b y x) = ((h12R (ur r b 7) (ur r b 8) y x : ℝ) : EReal) := by
  rw [val_main_v12_apply, val_main_v11_apply, val_main_v10_apply, val_main_cst_1_apply, v2_read x0 r hx, v4_read x0 r hx]
  simp only [Ideal.mulf_def, Ideal.ofBits_def, ofBits_25, ← EReal.coe_mul]
  rfl

theorem v17_read (b : Fin 8) (y x : Fin 512) :
    val_main_v17 (F := Idealize.ShloMosaic.Ideal) x0 (ix3 b y x) = ((h22 (ur r b 8) y x : ℝ) : EReal) := by
  rw [val_main_v17_apply, val_main_v16_apply, val_main_cst_3_apply, val_main_v15_apply, val_main_v14_apply,
    val_main_v13_apply, val_main_cst_2_apply, v4_read x0 r hx]
  simp only [Ideal.addf_def, Ideal.mulf_def, Ideal.ofBits_def, ofBits_1, ofBits_25, ← EReal.coe_mul, ← EReal.coe_add]
  rfl

/-- The padded slice: the slice inside, zero on the ring. -/
theorem pad_read (b : Fin 8) (t : Fin 7) (p q : ℕ) (hp : p < 514) (hq : q < 514) :
    val_main_v18 (F := Idealize.ShloMosaic.Ideal) x0 (ix4 b t ⟨p, hp⟩ ⟨q, hq⟩)
      = ((zext (ur r b (up7 t)) p q : ℝ) : EReal) := by
  unfold val_main_v18 zext
  by_cases h : (1 ≤ p ∧ p < 513) ∧ (1 ≤ q ∧ q < 513)
  · rw [dif_pos h]
    rw [pad_apply_of_inside _ _ _ _ _ _ _ (ix4 b t ⟨p, hp⟩ ⟨q, hq⟩)
      (ix4 b t (⟨p - 1, by omega⟩ : Fin 512) (⟨q - 1, by omega⟩ : Fin 512)) (fun a => match a with
      | ⟨0, _⟩ => by show b.val = 0 + b.val * (0 + 1); omega
      | ⟨1, _⟩ => by show t.val = 0 + t.val * (0 + 1); omega
      | ⟨2, _⟩ => by show p = 1 + (p - 1) * (0 + 1); omega
      | ⟨3, _⟩ => by show q = 1 + (q - 1) * (0 + 1); omega)]
    exact v0_read x0 r hx b t _ _
  · rw [dif_neg h]
    have hz : val_main_call0_v0 (F := Idealize.ShloMosaic.Ideal) (Shape.Idx.first h_S_) = ((0 : ℝ) : EReal) := by
      show (((0#32 : BitVec 32).toInt : ℝ) : EReal) = _
      simp
    by_cases h2 : 1 ≤ p ∧ p < 513
    · have h3 : ¬(1 ≤ q ∧ q < 513) := fun h3 => h ⟨h2, h3⟩
      rw [pad_apply_of_not_inside _ _ _ _ _ _ _ (ix4 b t ⟨p, hp⟩ ⟨q, hq⟩) ⟨3, by decide⟩ (by
        show ¬(1 ≤ q ∧ (q - 1) % (0 + 1) = 0 ∧ (q - 1) / (0 + 1) < 512); omega)]
      exact hz
    · rw [pad_apply_of_not_inside _ _ _ _ _ _ _ (ix4 b t ⟨p, hp⟩ ⟨q, hq⟩) ⟨2, by decide⟩ (by
        show ¬(1 ≤ p ∧ (p - 1) % (0 + 1) = 0 ∧ (p - 1) / (0 + 1) < 512); omega)]
      exact hz

/-! ## The nine windows of the padded slice -/

theorem v19_read (b : Fin 8) (t : Fin 7) (y x : Fin 512) :
    val_main_v19 (F := Idealize.ShloMosaic.Ideal) x0 (ix4 b t y x) = ((ur r b (up7 t) y x : ℝ) : EReal) := by
  have hy := y.isLt; have hxx := x.isLt
  rw [val_main_v19_apply]
  have e : idx_main_v19 (ix4 b t y x) = ix4 b t (⟨1 + y.val, by omega⟩ : Fin 514) (⟨1 + x.val, by omega⟩ : Fin 514) :=
    funext fun a => Fin.ext (by
      match a with
      | ⟨0, _⟩ => rfl
      | ⟨1, _⟩ => rfl
      | ⟨2, _⟩ => rfl
      | ⟨3, _⟩ => rfl)
  rw [e, pad_read x0 r hx, zext_11]

theorem v20_read (b : Fin 8) (t : Fin 7) (y x : Fin 512) :
    val_main_v20 (F := Idealize.ShloMosaic.Ideal) x0 (ix4 b t y x) = ((sxp (ur r b (up7 t)) y x : ℝ) : EReal) := by
  have hy := y.isLt; have hxx := x.isLt
  rw [val_main_v20_apply]
  have e : idx_main_v20 (ix4 b t y x) = ix4 b t (⟨1 + y.val, by omega⟩ : Fin 514) (⟨2 + x.val, by omega⟩ : Fin 514) :=
    funext fun a => Fin.ext (by
      match a with
      | ⟨0, _⟩ => rfl
      | ⟨1, _⟩ => rfl
      | ⟨2, _⟩ => rfl
      | ⟨3, _⟩ => rfl)
  rw [e, pad_read x0 r hx, zext_12]

theorem v24_read (b : Fin 8) (t : Fin 7) (y x : Fin 512) :
    val_main_v24 (F := Idealize.ShloMosaic.Ideal) x0 (ix4 b t y x) = ((sxm (ur r b (up7 t)) y x : ℝ) : EReal) := by
  have hy := y.isLt; have hxx := x.isLt
  rw [val_main_v24_apply]
  have e : idx_main_v24 (ix4 b t y x) = ix4 b t (⟨1 + y.val, by omega⟩ : Fin 514) (⟨x.val, by omega⟩ : Fin 514) :=
    funext fun a => Fin.ext (by
      match a with
      | ⟨0, _⟩ => rfl
      | ⟨1, _⟩ => rfl
      | ⟨2, _⟩ => rfl
      | ⟨3, _⟩ => rfl)
  rw [e, pad_read x0 r hx, zext_10]

theorem v26_read (b : Fin 8) (t : Fin 7) (y x : Fin 512) :
    val_main_v26 (F := Idealize.ShloMosaic.Ideal) x0 (ix4 b t y x) = ((syp (ur r b (up7 t)) y x : ℝ) : EReal) := by
  have hy := y.isLt; have hxx := x.isLt
  rw [val_main_v26_apply]
  have e : idx_main_v26 (ix4 b t y x) = ix4 b t (⟨2 + y.val, by omega⟩ : Fin 514) (⟨1 + x.val, by omega⟩ : Fin 514) :=
    funext fun a => Fin.ext (by
      match a with
      | ⟨0, _⟩ => rfl
      | ⟨1, _⟩ => rfl
      | ⟨2, _⟩ => rfl
      | ⟨3, _⟩ => rfl)
  rw [e, pad_read x0 r hx, zext_21]

theorem v30_read (b : Fin 8) (t : Fin 7) (y x : Fin 512) :
    val_main_v30 (F := Idealize.ShloMosaic.Ideal) x0 (ix4 b t y x) = ((sym (ur r b (up7 t)) y x : ℝ) : EReal) := by
  have hy := y.isLt; have hxx := x.isLt
  rw [val_main_v30_apply]
  have e : idx_main_v30 (ix4 b t y x) = ix4 b t (⟨y.val, by omega⟩ : Fin 514) (⟨1 + x.val, by omega⟩ : Fin 514) :=
    funext fun a => Fin.ext (by
      match a with
      | ⟨0, _⟩ => rfl
      | ⟨1, _⟩ => rfl
      | ⟨2, _⟩ => rfl
      | ⟨3, _⟩ => rfl)
  rw [e, pad_read x0 r hx, zext_01]

theorem v32_read (b : Fin 8) (t : Fin 7) (y x : Fin 512) :
    val_main_v32 (F := Idealize.ShloMosaic.Ideal) x0 (ix4 b t y x) = ((syp (sxp (ur r b (up7 t))) y x : ℝ) : EReal) := by
  have hy := y.isLt; have hxx := x.isLt
  rw [val_main_v32_apply]
  have e : idx_main_v32 (ix4 b t y x) = ix4 b t (⟨2 + y.val, by omega⟩ : Fin 514) (⟨2 + x.val, by omega⟩ : Fin 514) :=
    funext fun a => Fin.ext (by
      match a with
      | ⟨0, _⟩ => rfl
      | ⟨1, _⟩ => rfl
      | ⟨2, _⟩ => rfl
      | ⟨3, _⟩ => rfl)
  rw [e, pad_read x0 r hx, zext_22]

theorem v33_read (b : Fin 8) (t : Fin 7) (y x : Fin 512) :
    val_main_v33 (F := Idealize.ShloMosaic.Ideal) x0 (ix4 b t y x) = ((syp (sxm (ur r b (up7 t))) y x : ℝ) : EReal) := by
  have hy := y.isLt; have hxx := x.isLt
  rw [val_main_v33_apply]
  have e : idx_main_v33 (ix4 b t y x) = ix4 b t (⟨2 + y.val, by omega⟩ : Fin 514) (⟨x.val, by omega⟩ : Fin 514) :=
    funext fun a => Fin.ext (by
      match a with
      | ⟨0, _⟩ => rfl
      | ⟨1, _⟩ => rfl
      | ⟨2, _⟩ => rfl
      | ⟨3, _⟩ => rfl)
  rw [e, pad_read x0 r hx, zext_20]

theorem v35_read (b : Fin 8) (t : Fin 7) (y x : Fin 512) :
    val_main_v35 (F := Idealize.ShloMosaic.Ideal) x0 (ix4 b t y x) = ((sym (sxp (ur r b (up7 t))) y x : ℝ) : EReal) := by
  have hy := y.isLt; have hxx := x.isLt
  rw [val_main_v35_apply]
  have e : idx_main_v35 (ix4 b t y x) = ix4 b t (⟨y.val, by omega⟩ : Fin 514) (⟨2 + x.val, by omega⟩ : Fin 514) :=
    funext fun a => Fin.ext (by
      match a with
      | ⟨0, _⟩ => rfl
      | ⟨1, _⟩ => rfl
      | ⟨2, _⟩ => rfl
      | ⟨3, _⟩ => rfl)
  rw [e, pad_read x0 r hx, zext_02]

theorem v37_read (b : Fin 8) (t : Fin 7) (y x : Fin 512) :
    val_main_v37 (F := Idealize.ShloMosaic.Ideal) x0 (ix4 b t y x) = ((sym (sxm (ur r b (up7 t))) y x : ℝ) : EReal) := by
  have hy := y.isLt; have hxx := x.isLt
  rw [val_main_v37_apply]
  have e : idx_main_v37 (ix4 b t y x) = ix4 b t (⟨y.val, by omega⟩ : Fin 514) (⟨x.val, by omega⟩ : Fin 514) :=
    funext fun a => Fin.ext (by
      match a with
      | ⟨0, _⟩ => rfl
      | ⟨1, _⟩ => rfl
      | ⟨2, _⟩ => rfl
      | ⟨3, _⟩ => rfl)
  rw [e, pad_read x0 r hx, zext_00]

/-! ## The operator value and `M u` -/

/-- `A u_t` of batch `b`, in the reference's spelling. -/
def opR (r : S8x9x512x512.Idx → ℝ) (b : Fin 8) (t : Fin 7) : Grid :=
  axR ck 2 c4 (h11 (ur r b 7)) (h12R (ur r b 7) (ur r b 8)) (h22 (ur r b 8)) (ur r b (up7 t))

theorem v56_read (b : Fin 8) (t : Fin 7) (y x : Fin 512) :
    val_main_v56 (F := Idealize.ShloMosaic.Ideal) x0 (ix4 b t y x) = ((opR r b t y x : ℝ) : EReal) := by
  have e41 : idx_main_v41 (idx_main_v42 (ix4 b t y x)) = ix3 b y x :=
    funext fun a => Fin.ext (by match a with | ⟨0, _⟩ => rfl | ⟨1, _⟩ => rfl | ⟨2, _⟩ => rfl)
  have e44 : idx_main_v44 (idx_main_v47 (ix4 b t y x)) = ix3 b y x :=
    funext fun a => Fin.ext (by match a with | ⟨0, _⟩ => rfl | ⟨1, _⟩ => rfl | ⟨2, _⟩ => rfl)
  have e50 : idx_main_v50 (idx_main_v51 (ix4 b t y x)) = ix3 b y x :=
    funext fun a => Fin.ext (by match a with | ⟨0, _⟩ => rfl | ⟨1, _⟩ => rfl | ⟨2, _⟩ => rfl)
  simp only [val_main_v56_apply, val_main_v55_apply, val_main_v54_apply, val_main_cst_8_apply, val_main_v53_apply,
    val_main_v49_apply, val_main_v43_apply, val_main_v42_apply, val_main_v41_apply, val_main_v25_apply,
    val_main_v23_apply, val_main_v22_apply, val_main_v21_apply, val_main_cst_4_apply, val_main_v48_apply,
    val_main_v47_apply, val_main_v46_apply, val_main_v45_apply, val_main_cst_7_apply, val_main_v44_apply,
    val_main_v40_apply, val_main_v39_apply, val_main_cst_6_apply, val_main_v38_apply, val_main_v36_apply,
    val_main_v34_apply, val_main_v52_apply, val_main_v51_apply, val_main_v50_apply, val_main_v31_apply,
    val_main_v29_apply, val_main_v28_apply, val_main_v27_apply, val_main_cst_5_apply]
  rw [e41, e44, e50]
  simp only [v0_read x0 r hx, v9_read x0 r hx, v12_read x0 r hx, v17_read x0 r hx, v19_read x0 r hx, v20_read x0 r hx,
    v24_read x0 r hx, v26_read x0 r hx, v30_read x0 r hx, v32_read x0 r hx, v33_read x0 r hx, v35_read x0 r hx,
    v37_read x0 r hx]
  simp only [Ideal.subf_def, Ideal.addf_def, Ideal.mulf_def, Ideal.ofBits_def, ofBits_ck, ofBits_2, ofBits_c4,
    ← EReal.coe_mul, ← EReal.coe_add, ← EReal.coe_sub]
  rfl

/-- `M u_t = u_t + 1 · A u_t`. -/
theorem v59_read (b : Fin 8) (t : Fin 7) (y x : Fin 512) :
    val_main_v59 (F := Idealize.ShloMosaic.Ideal) x0 (ix4 b t y x)
      = ((mR 1 (ur r b (up7 t)) (opR r b t) y x : ℝ) : EReal) := by
  rw [val_main_v59_apply, val_main_v58_apply, val_main_v57_apply, val_main_cst_9_apply, v0_read x0 r hx, v56_read x0 r hx]
  simp only [Ideal.addf_def, Ideal.mulf_def, Ideal.ofBits_def, ofBits_1, ← EReal.coe_mul, ← EReal.coe_add]
  rfl

end Cert.ReferenceIdeal.RV

end
-- ==== Proof.RefSum.lean ====
/-
  The reference's sums, and its result.

  A host sum over the two lattice axes of an array `[8, n, 512, 512]` (or `[8, 512, 512]`), read at the ideal instance,
  is the initial value plus the double sum over rows and columns: the indices that drop to `(b, t)` are exactly
  `(b, t, y, x)`.  With that, the reference's four lattice sums are `0 + Stencil.rs` of the squared slice, of the squared
  `M u`, of the cross product and of the squared `A u₀`; the sums over slices and the final combination are
  `Stencil.qR`.
-/
import proofs.«172075_j85804856639623_2_alg».proof.Proof.RefPoint
import proofs.«172075_j85804856639623_2_alg».proof.Proof.VecReal
import Idealize.ShloMosaic.PureOps.Ideal.Laws

set_option maxRecDepth 16384

noncomputable section

namespace Cert.ReferenceIdeal.RV

open Idealize.ShloMosaic Idealize.ShloMosaic.ValueIdx Idealize.SL.Sem
open Cert.ReferenceIdeal Cert.ReferenceIdeal.Gen Cert.ReferenceIdeal.Read
open Cert.Stencil Cert.Consts Cert.Spec
open Cert.VecReal (coe_sum)

/-- A host sum over the last two axes of an `[8, 7, 512, 512]` array: the initial value plus the sum over rows and columns. -/
theorem hostReduce_yx4_7 (h' : (⟨4, ![8, 7, 512, 512]⟩ : Shape).ReducesTo [2, 3] ⟨2, ![8, 7]⟩)
    (v : (⟨4, ![8, 7, 512, 512]⟩ : Shape).Idx → EReal) (init : EReal) (b : Fin 8) (t : Fin 7) :
    Ideal.hostReduceAdd h' v init (ix2 b t) = init + ∑ y : Fin 512, ∑ x : Fin 512, v (ix4 b t y x) := by
  unfold Ideal.hostReduceAdd
  congr 1
  rw [← Finset.sum_product']
  have hleft : ∀ i ∈ Finset.univ.filter (fun i => h'.drop i = ix2 b t), ix4 b t (i 2) (i 3) = i := by
    intro i hi
    have hj := (Finset.mem_filter.1 hi).2
    have h0 : (i 0).val = b.val :=
      (h'.drop_apply_val_of_eq i 0 0).symm.trans (congrArg (fun j : (⟨2, ![8, 7]⟩ : Shape).Idx => (j 0).val) hj)
    have h1 : (i 1).val = t.val :=
      (h'.drop_apply_val_of_eq i 1 1).symm.trans (congrArg (fun j : (⟨2, ![8, 7]⟩ : Shape).Idx => (j 1).val) hj)
    funext a; apply Fin.ext
    match a with
    | ⟨0, _⟩ => exact h0.symm
    | ⟨1, _⟩ => exact h1.symm
    | ⟨2, _⟩ => rfl
    | ⟨3, _⟩ => rfl
  refine Finset.sum_nbij' (fun i => (i 2, i 3)) (fun p => ix4 b t p.1 p.2) ?_ ?_ ?_ ?_ ?_
  · intro i _; exact Finset.mem_product.2 ⟨Finset.mem_univ _, Finset.mem_univ _⟩
  · intro p _
    refine Finset.mem_filter.2 ⟨Finset.mem_univ _, ?_⟩
    funext a; apply Fin.ext
    match a with
    | ⟨0, _⟩ => exact h'.drop_apply_val_of_eq _ 0 0
    | ⟨1, _⟩ => exact h'.drop_apply_val_of_eq _ 1 1
  · intro i hi; exact hleft i hi
  · intro p _; rfl
  · intro i hi; exact congrArg v (hleft i hi).symm

/-- A host sum over the last two axes of an `[8, 6, 512, 512]` array: the initial value plus the sum over rows and columns. -/
theorem hostReduce_yx4_6 (h' : (⟨4, ![8, 6, 512, 512]⟩ : Shape).ReducesTo [2, 3] ⟨2, ![8, 6]⟩)
    (v : (⟨4, ![8, 6, 512, 512]⟩ : Shape).Idx → EReal) (init : EReal) (b : Fin 8) (t : Fin 6) :
    Ideal.hostReduceAdd h' v init (ix2 b t) = init + ∑ y : Fin 512, ∑ x : Fin 512, v (ix4 b t y x) := by
  unfold Ideal.hostReduceAdd
  congr 1
  rw [← Finset.sum_product']
  have hleft : ∀ i ∈ Finset.univ.filter (fun i => h'.drop i = ix2 b t), ix4 b t (i 2) (i 3) = i := by
    intro i hi
    have hj := (Finset.mem_filter.1 hi).2
    have h0 : (i 0).val = b.val :=
      (h'.drop_apply_val_of_eq i 0 0).symm.trans (congrArg (fun j : (⟨2, ![8, 6]⟩ : Shape).Idx => (j 0).val) hj)
    have h1 : (i 1).val = t.val :=
      (h'.drop_apply_val_of_eq i 1 1).symm.trans (congrArg (fun j : (⟨2, ![8, 6]⟩ : Shape).Idx => (j 1).val) hj)
    funext a; apply Fin.ext
    match a with
    | ⟨0, _⟩ => exact h0.symm
    | ⟨1, _⟩ => exact h1.symm
    | ⟨2, _⟩ => rfl
    | ⟨3, _⟩ => rfl
  refine Finset.sum_nbij' (fun i => (i 2, i 3)) (fun p => ix4 b t p.1 p.2) ?_ ?_ ?_ ?_ ?_
  · intro i _; exact Finset.mem_product.2 ⟨Finset.mem_univ _, Finset.mem_univ _⟩
  · intro p _
    refine Finset.mem_filter.2 ⟨Finset.mem_univ _, ?_⟩
    funext a; apply Fin.ext
    match a with
    | ⟨0, _⟩ => exact h'.drop_apply_val_of_eq _ 0 0
    | ⟨1, _⟩ => exact h'.drop_apply_val_of_eq _ 1 1
  · intro i hi; exact hleft i hi
  · intro p _; rfl
  · intro i hi; exact congrArg v (hleft i hi).symm

/-- The same for an `[8, 512, 512]` array summed over its last two axes. -/
theorem hostReduce_yx3 (h' : (⟨3, ![8, 512, 512]⟩ : Shape).ReducesTo [1, 2] ⟨1, ![8]⟩)
    (v : (⟨3, ![8, 512, 512]⟩ : Shape).Idx → EReal) (init : EReal) (b : Fin 8) :
    Ideal.hostReduceAdd h' v init (ix1 b) = init + ∑ y : Fin 512, ∑ x : Fin 512, v (ix3 b y x) := by
  unfold Ideal.hostReduceAdd
  congr 1
  rw [← Finset.sum_product']
  have hleft : ∀ i ∈ Finset.univ.filter (fun i => h'.drop i = ix1 b), ix3 b (i 1) (i 2) = i := by
    intro i hi
    have hj := (Finset.mem_filter.1 hi).2
    have h0 : (i 0).val = b.val :=
      (h'.drop_apply_val_of_eq i 0 0).symm.trans (congrArg (fun j : (⟨1, ![8]⟩ : Shape).Idx => (j 0).val) hj)
    funext a; apply Fin.ext
    match a with
    | ⟨0, _⟩ => exact h0.symm
    | ⟨1, _⟩ => rfl
    | ⟨2, _⟩ => rfl
  refine Finset.sum_nbij' (fun i => (i 1, i 2)) (fun p => ix3 b p.1 p.2) ?_ ?_ ?_ ?_ ?_
  · intro i _; exact Finset.mem_product.2 ⟨Finset.mem_univ _, Finset.mem_univ _⟩
  · intro p _
    refine Finset.mem_filter.2 ⟨Finset.mem_univ _, ?_⟩
    funext a; apply Fin.ext
    match a with
    | ⟨0, _⟩ => exact h'.drop_apply_val_of_eq _ 0 0
  · intro i hi; exact hleft i hi
  · intro p _; rfl
  · intro i hi; exact congrArg v (hleft i hi).symm

variable (x0 : S8x9x512x512.Idx → EReal) (r : S8x9x512x512.Idx → ℝ) (hx : ∀ j, x0 j = ((r j : ℝ) : EReal))
include hx

/-- `‖u_t‖²`, from zero. -/
theorem v61_read (b : Fin 8) (t : Fin 7) :
    val_main_v61 (F := Idealize.ShloMosaic.Ideal) x0 (ix2 b t) = ((0 + rs (sq (ur r b (up7 t))) : ℝ) : EReal) := by
  unfold val_main_v61
  simp only [Host.reduceAdd, Ideal.hostReduceAdd_def]
  rw [hostReduce_yx4_7]
  simp only [val_main_v60_apply, v0_read x0 r hx, val_main_cst_10_apply, Ideal.mulf_def, Ideal.ofBits_def, ofBits_0,
    ← EReal.coe_mul, ← coe_sum, ← EReal.coe_add]
  rfl

/-- `‖M u_t‖²`, from zero. -/
theorem v63_read (b : Fin 8) (t : Fin 7) :
    val_main_v63 (F := Idealize.ShloMosaic.Ideal) x0 (ix2 b t)
      = ((0 + rs (sq (mR 1 (ur r b (up7 t)) (opR r b t))) : ℝ) : EReal) := by
  unfold val_main_v63
  simp only [Host.reduceAdd, Ideal.hostReduceAdd_def]
  rw [hostReduce_yx4_7]
  simp only [val_main_v62_apply, v59_read x0 r hx, val_main_cst_11_apply, Ideal.mulf_def, Ideal.ofBits_def, ofBits_0,
    ← EReal.coe_mul, ← coe_sum, ← EReal.coe_add]
  rfl

/-- `⟨u_k, M u_{k+1}⟩`, from zero. -/
theorem v67_read (b : Fin 8) (k : Fin 6) :
    val_main_v67 (F := Idealize.ShloMosaic.Ideal) x0 (ix2 b k)
      = ((0 + rs (pr (ur r b (up7 (p6 k))) (mR 1 (ur r b (up7 (s6 k))) (opR r b (s6 k)))) : ℝ) : EReal) := by
  have e64 : ∀ y x : Fin 512, idx_main_v64 (ix4 b k y x) = ix4 b (p6 k) y x := fun y x =>
    funext fun a => Fin.ext (by match a with | ⟨0, _⟩ => rfl | ⟨1, _⟩ => rfl | ⟨2, _⟩ => rfl | ⟨3, _⟩ => rfl)
  have e65 : ∀ y x : Fin 512, idx_main_v65 (ix4 b k y x) = ix4 b (s6 k) y x := fun y x =>
    funext fun a => Fin.ext (by match a with | ⟨0, _⟩ => rfl | ⟨1, _⟩ => rfl | ⟨2, _⟩ => rfl | ⟨3, _⟩ => rfl)
  unfold val_main_v67
  simp only [Host.reduceAdd, Ideal.hostReduceAdd_def]
  rw [hostReduce_yx4_6]
  simp only [val_main_v66_apply, val_main_v64_apply, val_main_v65_apply, e64, e65, v0_read x0 r hx, v59_read x0 r hx,
    val_main_cst_12_apply, Ideal.mulf_def, Ideal.ofBits_def, ofBits_0, ← EReal.coe_mul, ← coe_sum, ← EReal.coe_add]
  rfl

/-- `‖A u₀‖²`, from zero. -/
theorem v72_read (b : Fin 8) :
    val_main_v72 (F := Idealize.ShloMosaic.Ideal) x0 (ix1 b) = ((0 + rs (sq (opR r b 0)) : ℝ) : EReal) := by
  have hb := b.isLt
  have e70 : ∀ y x : Fin 512, idx_main_v69 (idx_main_v70 (ix3 b y x)) = ix4 b (0 : Fin 7) y x := fun y x => by
    have hy := y.isLt; have hxx := x.isLt
    exact funext fun a => Fin.ext (by
      match a with
      | ⟨0, _⟩ => show ((b.val * 512 + y.val) * 512 + x.val) / 262144 = b.val; omega
      | ⟨1, _⟩ => rfl
      | ⟨2, _⟩ => show ((b.val * 512 + y.val) * 512 + x.val) / 512 % 512 = y.val; omega
      | ⟨3, _⟩ => show ((b.val * 512 + y.val) * 512 + x.val) % 512 = x.val; omega)
  unfold val_main_v72
  simp only [Host.reduceAdd, Ideal.hostReduceAdd_def]
  rw [hostReduce_yx3]
  simp only [val_main_v71_apply, val_main_v70_apply, val_main_v69_apply, e70, v56_read x0 r hx, val_main_cst_14_apply,
    Ideal.mulf_def, Ideal.ofBits_def, ofBits_0, ← EReal.coe_mul, ← coe_sum, ← EReal.coe_add]
  rfl

end Cert.ReferenceIdeal.RV

end
-- ==== Proof.RefValue.lean ====
/-
  The reference's result is the common specification.

  At batch `b` the reference combines its sums as `Stencil.qR`: `‖A u₀‖² + 1.05 ‖u₀‖²`, plus the sum over slices 1–6 of
  `‖M u_t‖²`, plus the sum over slices 1–5 of `‖u_t‖²`, minus twice the sum over `k = 0…5` of `⟨u_k, M u_{k+1}⟩`.  The
  finite sums regroup into the slice-by-slice form (`qR_eq_qK`), the corner reads combine into the y-difference of the
  x-difference (`axR_eq_axK`), and `2 · (25 vx vy) = 50 vx vy`; so the result is `Spec.QK` of the argument.
-/
import proofs.«172075_j85804856639623_2_alg».proof.Proof.RefSum

set_option maxRecDepth 16384

noncomputable section

namespace Cert.ReferenceIdeal.RV

open Idealize.ShloMosaic Idealize.ShloMosaic.ValueIdx Idealize.SL.Sem
open Cert.ReferenceIdeal Cert.ReferenceIdeal.Gen Cert.ReferenceIdeal.Read
open Cert.Stencil Cert.Consts Cert.Spec
open Cert.VecReal (coe_sum)

/-- The reference's result at batch `b`, over a real argument. -/
theorem v86_read (x0 : S8x9x512x512.Idx → EReal) (r : S8x9x512x512.Idx → ℝ) (hx : ∀ j, x0 j = ((r j : ℝ) : EReal))
    (b : Fin 8) :
    val_main_v86 (F := Idealize.ShloMosaic.Ideal) x0 (ix1 b)
      = ((qR c105 2 1 (fun t => ur r b (up7 t)) (fun t => opR r b t) : ℝ) : EReal) := by
  have e74 : idx_main_v73 (idx_main_v74 (ix1 b)) = ix2 b (0 : Fin 7) :=
    funext fun a => Fin.ext (by
      match a with
      | ⟨0, _⟩ => show b.val / 1 = b.val; omega
      | ⟨1, _⟩ => rfl)
  have e68 : ∀ k : Fin 6, idx_main_v68 (ix1 b) k = ix2 b k := fun k =>
    funext fun a => Fin.ext (by match a with | ⟨0, _⟩ => rfl | ⟨1, _⟩ => rfl)
  have e79 : ∀ k : Fin 6, idx_main_v78 (idx_main_v79 (ix1 b) k) = ix2 b (s6 k) := fun k =>
    funext fun a => Fin.ext (by match a with | ⟨0, _⟩ => rfl | ⟨1, _⟩ => rfl)
  have e82 : ∀ k : Fin 5, idx_main_v81 (idx_main_v82 (ix1 b) k) = ix2 b (s5 k) := fun k =>
    funext fun a => Fin.ext (by match a with | ⟨0, _⟩ => rfl | ⟨1, _⟩ => rfl)
  rw [val_main_v86_apply, val_main_v85_apply, val_main_v84_apply, val_main_cst_18_apply, val_main_v83_apply,
    val_main_v80_apply, val_main_v77_apply, val_main_v76_apply, val_main_v75_apply, val_main_cst_15_apply,
    val_main_v74_apply, val_main_v73_apply, e74, val_main_v68_apply, val_main_v79_apply, val_main_v82_apply]
  simp only [val_main_v78_apply, val_main_v81_apply, e68, e79, e82, v61_read x0 r hx, v63_read x0 r hx,
    v67_read x0 r hx, v72_read x0 r hx, val_main_cst_13_apply, val_main_cst_16_apply, val_main_cst_17_apply,
    Ideal.subf_def, Ideal.addf_def, Ideal.mulf_def, Ideal.ofBits_def, ofBits_0, ofBits_2, ofBits_c105,
    ← coe_sum, ← EReal.coe_mul, ← EReal.coe_add, ← EReal.coe_sub]
  rfl

/-- Twice the reference's mixed entry is the kernel's. -/
theorem two_h12R (gx gy : Grid) : (fun y x => 2 * h12R gx gy y x) = h12K gx gy := by
  funext y x; unfold h12R h12K; ring

/-- THE REFERENCE'S VALUE: on an argument of real entries its result is `Spec.QK` of the argument. -/
theorem ref_eq (x0 : S8x9x512x512.Idx → EReal) (hreal : IsReal x0) :
    val_main_v86 (F := Idealize.ShloMosaic.Ideal) x0 = QK x0 := by
  funext i
  obtain ⟨b, rfl⟩ : ∃ b : Fin 8, i = ix1 b := ⟨i 0, eq_ix1 i⟩
  rw [v86_read x0 (fun j => (x0 j).toReal) hreal b, qR_eq_qK]
  show _ = ((qv x0 b : ℝ) : EReal)
  unfold qv
  congr 2
  funext t
  unfold opR opAt
  rw [axR_eq_axK, two_h12R]
  rfl

end Cert.ReferenceIdeal.RV

end
-- ==== Proof.Finite.lean ====
/-
  From the precondition to real entries.

  The precondition is `jnp.all(|state| < +inf)`: a reduction by `and` of the comparison of each entry's absolute
  value with the pattern of +inf.  Its value 1 gives the comparison 1 at every index; `|x| < ⊤` on the extended reals
  excludes `x = ⊤` and `x = ⊥`, so `x` is a real number.
-/
import proofs.«172075_j85804856639623_2_alg».proof.Pre_finite_inputs
import proofs.«172075_j85804856639623_2_alg».proof.Proof.Gen.Pre_finite_inputs
import proofs.«172075_j85804856639623_2_alg».proof.Proof.Spec
import Idealize.ShloMosaic.Lib.ReduceAll
import Idealize.ShloMosaic.Lib.ValueIdx
import Idealize.ShloMosaic.PureOps.Ideal.Laws

noncomputable section

namespace Cert.Finite

open Idealize.ShloMosaic Idealize.ShloMosaic.ValueIdx Cert.Spec

instance : Subsingleton Cert.Pre_finite_inputs.S_.Idx := ⟨fun a b => funext fun d => d.elim0⟩

/-- The pattern of +inf denotes `⊤`. -/
theorem ofBits_inf : Idealize.ShloMosaic.Ideal.ofBits .f32 0x7F800000#32 = (⊤ : EReal) := by
  simp [Idealize.ShloMosaic.Ideal.ofBits, Idealize.ShloMosaic.Ideal.ieee]

/-- An extended real whose absolute value is below `⊤` is a real number. -/
theorem real_of_abs_lt_top (x : EReal) (h : max x (-x) < ⊤) : x = ((x.toReal : ℝ) : EReal) := by
  induction x using EReal.rec with
  | bot => simp at h
  | coe r => simp
  | top => simp at h

/-- The precondition makes every entry of the argument real. -/
theorem isReal_of_pre (x0 : Cert.Pre_finite_inputs.S8x9x512x512.Idx → EReal)
    (h : Cert.Pre_finite_inputs.fn (F := Idealize.ShloMosaic.Ideal) x0 = (fun _ => 1#1)) : IsReal x0 := by
  intro i
  have h0 := congrFun h ix0
  dsimp only [Cert.Pre_finite_inputs.fn] at h0
  have hi := Host.reduce_andi_all _ _ _ _ _ h0 i
  have hlt : max (x0 i) (-(x0 i)) < ⊤ := by
    have this : BitVec.ofBool (decide (max (x0 i) (-(x0 i)) < Idealize.ShloMosaic.Ideal.ofBits .f32 0x7F800000#32)) = 1#1 := hi
    rw [ofBits_inf] at this
    by_contra hn
    rw [decide_eq_false hn] at this
    exact absurd this (by decide)
  exact real_of_abs_lt_top _ hlt

end Cert.Finite

end
-- ==== Proof.lean ====
/-
  The quadratic form `q(b) = xᵀ Q x` of a block-tridiagonal space–time precision, batch by batch: for the seven time
  slices `u₀ … u₆` of batch `b` and the operator `A u = κ² u − div(H ∇u)` on the 512 × 512 lattice with zero boundary
  (`H = I + 25 v vᵀ` from the batch's two velocity grids, a nine-point stencil),

      q = ‖A u₀‖² + 1.05 ‖u₀‖² + Σ_{t=1}^{6} ‖M u_t‖² + Σ_{t=1}^{5} ‖u_t‖² − 2 Σ_{t=0}^{5} ⟨u_t, M u_{t+1}⟩,   M = I + A.

  The kernel takes one batch per grid point, reads a neighbour by rotating the slice one place and masking the wrapped
  edge to zero, takes the mixed difference as the y-difference of the x-difference, folds `2 · 25` into 50, and
  accumulates `q` slice by slice; the reference pads each slice with zeros, reads the nine windows, and sums each kind of
  term over the slices first.  Over REAL entries — which is what the precondition gives: `|x| < +inf` excludes the two
  infinities — both compute the same real number: the shifts are linear, finite sums regroup, `2 · (25 a b) = 50 a b`
  and `1 · a = a`.  Over the extended reals without that precondition the regroupings fail at infinities, so the
  precondition is used.  The literals κ² = f32(0.1089), 1/4 and f32(1.05) are the same words in both programs and enter
  only as some real numbers.

  The three frames are the generated ones (the reference's is its generated run with the result dropped); the ideal
  pass rewrote nothing, so `preserves` is trivial; `algebraic` pairs the kernel's run read as `Spec.QK` of the argument
  (Proof/KernelValue.lean) with the reference's run read as the same function (Proof/RefValue.lean).
-/
import proofs.«172075_j85804856639623_2_alg».proof.Defs
import proofs.«172075_j85804856639623_2_alg».proof.Proof.Gen.Kernel
import proofs.«172075_j85804856639623_2_alg».proof.Proof.Gen.Kernel.Skeleton
import proofs.«172075_j85804856639623_2_alg».proof.Proof.Gen.Kernel.Launch
import proofs.«172075_j85804856639623_2_alg».proof.Proof.Gen.Kernel.Points
import proofs.«172075_j85804856639623_2_alg».proof.Proof.Gen.Kernel.Frame
import proofs.«172075_j85804856639623_2_alg».proof.Proof.Gen.KernelIdeal
import proofs.«172075_j85804856639623_2_alg».proof.Proof.Gen.KernelIdeal.Skeleton
import proofs.«172075_j85804856639623_2_alg».proof.Proof.Gen.KernelIdeal.Launch
import proofs.«172075_j85804856639623_2_alg».proof.Proof.Gen.KernelIdeal.Points
import proofs.«172075_j85804856639623_2_alg».proof.Proof.Gen.KernelIdeal.Frame
import proofs.«172075_j85804856639623_2_alg».proof.Proof.Gen.ReferenceIdeal
import proofs.«172075_j85804856639623_2_alg».proof.Proof.Gen.Pre_finite_inputs
import proofs.«172075_j85804856639623_2_alg».proof.Proof.Gen.ReferenceIdeal.Run
import proofs.«172075_j85804856639623_2_alg».proof.Proof.Gen.ReferenceIdeal.Read
import proofs.«172075_j85804856639623_2_alg».proof.Proof.KernelValue
import proofs.«172075_j85804856639623_2_alg».proof.Proof.RefValue
import proofs.«172075_j85804856639623_2_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2)
    (Cert.ReferenceIdeal.Value.run (F := Idealize.ShloMosaic.Ideal) m ρ)

/-- The ideal pass rewrote no operation. -/
theorem preserves : Cert.preserves_Kernel_KernelIdeal := trivial

/-- Both runs end with the result at `Spec.QK` of the (shared, real) argument. -/
theorem algebraic : Cert.algebraic_KernelIdeal_ReferenceIdeal := by
  intro m ρ m' ρ' hpre hagree
  have hfin : ∀ c : Dev Cert.KernelIdeal.nD,
      Cert.Spec.IsReal (m ((c : Thread Cert.KernelIdeal.nD Cert.KernelIdeal.τ).loc Cert.KernelIdeal.main_arg0)) :=
    fun c => Cert.Finite.isReal_of_pre _ (hpre c)
  refine ⟨fun c => Cert.Spec.QK (m ((c.tc : Thread Cert.KernelIdeal.nD Cert.KernelIdeal.τ).loc Cert.KernelIdeal.main_arg0)),
    Cert.KernelIdeal.KV.run m ρ hfin, ?_⟩
  refine (θ_run Cert.ReferenceIdeal.defs _ _).mono (fun _ h c => ⟨?_, (h c).2⟩)
    (Cert.ReferenceIdeal.Value.run (F := Idealize.ShloMosaic.Ideal) m' ρ')
  rw [(h c).1, Cert.ReferenceIdeal.Read.val_main_v86_eq, hagree c]
  exact Cert.ReferenceIdeal.RV.ref_eq _ (hfin c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
